-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v28)) (v5 : (c : Dev Cert.KernelIdeal.nD) → Buf (Elt Ideal) ((c.tc : Thread Cert.KernelIdeal.nD Cert.KernelIdeal.τ).loc Cert.KernelIdeal.main_v32)) (v6 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_v28) = v4 c
          ∧ r.2.mem ((c.tc : Thread Cert.KernelIdeal.nD Cert.KernelIdeal.τ).loc Cert.KernelIdeal.main_v32) = v5 c
          ∧ r.2.mem ((c.tc : Thread Cert.KernelIdeal.nD Cert.KernelIdeal.τ).loc Cert.KernelIdeal.main_v35) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_v69) = v5 c
          ∧ r.2.mem ((c.tc : Thread Cert.ReferenceIdeal.nD Cert.ReferenceIdeal.τ).loc Cert.ReferenceIdeal.main_v72) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x256 : Shape := ⟨2, ![8192, 256]⟩
abbrev S8192x16 : Shape := ⟨2, ![8192, 16]⟩
abbrev S256x1024 : Shape := ⟨2, ![256, 1024]⟩
abbrev S256x256 : Shape := ⟨2, ![256, 256]⟩
abbrev S16x1024 : Shape := ⟨2, ![16, 1024]⟩
abbrev S16x256 : Shape := ⟨2, ![16, 256]⟩
abbrev S256x16 : Shape := ⟨2, ![256, 16]⟩
abbrev S1024x256 : Shape := ⟨2, ![1024, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192x16 : S_.BroadcastsInDim S8192x16 (![] : Fin 0 → Fin S8192x16.rank)
  reducesTo_S8192x16_S_d0_1 : S8192x16.ReducesTo [0, 1] S_
  bcast_S_S256x1024 : S_.BroadcastsInDim S256x1024 (![] : Fin 0 → Fin S256x1024.rank)
  reducesTo_S256x1024_S_d0_1 : S256x1024.ReducesTo [0, 1] S_
  bcast_S_S256x256 : S_.BroadcastsInDim S256x256 (![] : Fin 0 → Fin S256x256.rank)
  reducesTo_S256x256_S_d0_1 : S256x256.ReducesTo [0, 1] S_
  bcast_S_S16x1024 : S_.BroadcastsInDim S16x1024 (![] : Fin 0 → Fin S16x1024.rank)
  reducesTo_S16x1024_S_d0_1 : S16x1024.ReducesTo [0, 1] S_
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part4 {F : FTy → Type} [FloatOps F] (main_arg14 : FVec F S256x16 .f32) (main_arg15 : FVec F S256x256 .f32) (main_arg16 : FVec F S1024x256 .f32) (main_v63 : IVec S_ 1) (main_v67 : IVec S_ 1) : IVec S_ 1 :=
  let main_v68 : IVec S_ 1 := andi main_v63 main_v67
  let main_v69 : FVec F S256x16 .f32 := Host.absf main_arg14
  let main_cst_26 : FVec F S_ .f32 := constant S_ .f32 0x7F800000#32
  let main_v70 : FVec F S256x16 .f32 := broadcastInDim S256x16 ![] bcast_S_S256x16 main_cst_26
  let main_v71 : IVec S256x16 1 := cmpf .olt main_v69 main_v70
  let main_c_27 : IVec S_ 1 := constantI S_ 1 1#1
  let main_v72 : IVec S_ 1 := (fun x v => Host.reduce IntOp.andi x v reducesTo_S256x16_S_d0_1 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S1024x256 .f32 := Host.absf main_arg16
  let main_cst_30 : FVec F S_ .f32 := constant S_ .f32 0x7F800000#32
  let main_v80 : FVec F S1024x256 .f32 := broadcastInDim S1024x256 ![] bcast_S_S1024x256 main_cst_30
  let main_v81 : IVec S1024x256 1 := cmpf .olt main_v79 main_v80
  let main_c_31 : IVec S_ 1 := constantI S_ 1 1#1
  let main_v82 : IVec S_ 1 := (fun x v => Host.reduce IntOp.andi x v reducesTo_S1024x256_S_d0_1 h_S_) main_v81 main_c_31
  let main_v83 : IVec S_ 1 := andi main_v78 main_v82
  main_v83

def fn_part3 {F : FTy → Type} [FloatOps F] (main_arg11 : FVec F S256x256 .f32) (main_arg12 : FVec F S16x1024 .f32) (main_arg13 : FVec F S16x256 .f32) (main_arg14 : FVec F S256x16 .f32) (main_arg15 : FVec F S256x256 .f32) (main_arg16 : FVec F S1024x256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S16x1024 .f32 := Host.absf main_arg12
  let main_cst_22 : FVec F S_ .f32 := constant S_ .f32 0x7F800000#32
  let main_v60 : FVec F S16x1024 .f32 := broadcastInDim S16x1024 ![] bcast_S_S16x1024 main_cst_22
  let main_v61 : IVec S16x1024 1 := cmpf .olt main_v59 main_v60
  let main_c_23 : IVec S_ 1 := constantI S_ 1 1#1
  let main_v62 : IVec S_ 1 := (fun x v => Host.reduce IntOp.andi x v reducesTo_S16x1024_S_d0_1 h_S_) main_v61 main_c_23
  let main_v63 : IVec S_ 1 := andi main_v58 main_v62
  let main_v64 : FVec F S16x256 .f32 := Host.absf main_arg13
  let main_cst_24 : FVec F S_ .f32 := constant S_ .f32 0x7F800000#32
  let main_v65 : FVec F S16x256 .f32 := broadcastInDim S16x256 ![] bcast_S_S16x256 main_cst_24
  let main_v66 : IVec S16x256 1 := cmpf .olt main_v64 main_v65
  let main_c_25 : IVec S_ 1 := constantI S_ 1 1#1
  let main_v67 : IVec S_ 1 := (fun x v => Host.reduce IntOp.andi x v reducesTo_S16x256_S_d0_1 h_S_) main_v66 main_c_25
  fn_part4 (F := F) main_arg14 main_arg15 main_arg16 main_v63 main_v67

def fn_part2 {F : FTy → Type} [FloatOps F] (main_arg7 : FVec F S256x1024 .f32) (main_arg8 : FVec F S256x256 .f32) (main_arg9 : FVec F S256x256 .f32) (main_arg10 : FVec F S256x256 .f32) (main_arg11 : FVec F S256x256 .f32) (main_arg12 : FVec F S16x1024 .f32) (main_arg13 : FVec F S16x256 .f32) (main_arg14 : FVec F S256x16 .f32) (main_arg15 : FVec F S256x256 .f32) (main_arg16 : FVec F S1024x256 .f32) (main_v33 : IVec S_ 1) : IVec S_ 1 :=
  let main_v34 : FVec F S256x1024 .f32 := Host.absf main_arg7
  let main_cst_12 : FVec F S_ .f32 := constant S_ .f32 0x7F800000#32
  let main_v35 : FVec F S256x1024 .f32 := broadcastInDim S256x1024 ![] bcast_S_S256x1024 main_cst_12
  let main_v36 : IVec S256x1024 1 := cmpf .olt main_v34 main_v35
  let main_c_13 : IVec S_ 1 := constantI S_ 1 1#1
  let main_v37 : IVec S_ 1 := (fun x v => Host.reduce IntOp.andi x v reducesTo_S256x1024_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_v48 main_v49 main_v50

def fn_part1 {F : FTy → Type} [FloatOps F] (main_arg4 : FVec F S8192x256 .f32) (main_arg5 : FVec F S8192x256 .f32) (main_arg6 : FVec F S256x1024 .f32) (main_arg7 : FVec F S256x1024 .f32) (main_arg8 : FVec F S256x256 .f32) (main_arg9 : FVec F S256x256 .f32) (main_arg10 : FVec F S256x256 .f32) (main_arg11 : FVec F S256x256 .f32) (main_arg12 : FVec F S16x1024 .f32) (main_arg13 : FVec F S16x256 .f32) (main_arg14 : FVec F S256x16 .f32) (main_arg15 : FVec F S256x256 .f32) (main_arg16 : FVec F S1024x256 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S8192x256 .f32 := Host.absf main_arg5
  let main_cst_8 : FVec F S_ .f32 := constant S_ .f32 0x7F800000#32
  let main_v25 : FVec F S8192x256 .f32 := broadcastInDim S8192x256 ![] bcast_S_S8192x256 main_cst_8
  let main_v26 : IVec S8192x256 1 := cmpf .olt main_v24 main_v25
  let main_c_9 : IVec S_ 1 := constantI S_ 1 1#1
  let main_v27 : IVec S_ 1 := (fun x v => Host.reduce IntOp.andi x v reducesTo_S8192x256_S_d0_1 h_S_) main_v26 main_c_9
  let main_v28 : IVec S_ 1 := andi main_v23 main_v27
  let main_v29 : FVec F S256x1024 .f32 := Host.absf main_arg6
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8192x1024 .f32) (main_arg1 : FVec F S8192x256 .f32) (main_arg2 : FVec F S8192x256 .f32) (main_arg3 : FVec F S8192x16 .f32) (main_arg4 : FVec F S8192x256 .f32) (main_arg5 : FVec F S8192x256 .f32) (main_arg6 : FVec F S256x1024 .f32) (main_arg7 : FVec F S256x1024 .f32) (main_arg8 : FVec F S256x256 .f32) (main_arg9 : FVec F S256x256 .f32) (main_arg10 : FVec F S256x256 .f32) (main_arg11 : FVec F S256x256 .f32) (main_arg12 : FVec F S16x1024 .f32) (main_arg13 : FVec F S16x256 .f32) (main_arg14 : FVec F S256x16 .f32) (main_arg15 : FVec F S256x256 .f32) (main_arg16 : FVec F S1024x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x16 .f32 := Host.absf main_arg3
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8192x1024 : Shape := ⟨2, ![8192, 1024]⟩
abbrev S8192x256 : Shape := ⟨2, ![8192, 256]⟩
abbrev S8192x16 : Shape := ⟨2, ![8192, 16]⟩
abbrev S256x1024 : Shape := ⟨2, ![256, 1024]⟩
abbrev S256x256 : Shape := ⟨2, ![256, 256]⟩
abbrev S16x1024 : Shape := ⟨2, ![16, 1024]⟩
abbrev S16x256 : Shape := ⟨2, ![16, 256]⟩
abbrev S256x16 : Shape := ⟨2, ![256, 16]⟩
abbrev S1024x256 : Shape := ⟨2, ![1024, 256]⟩
abbrev S1024x16 : Shape := ⟨2, ![1024, 16]⟩
abbrev S_ : Shape := ⟨0, ![]⟩
abbrev S1024x1024 : Shape := ⟨2, ![1024, 1024]⟩

abbrev nBuf : Space → Nat
  | .hbm => 66
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x16, .f32⟩
  | .hbm, ⟨4, _⟩ => ⟨S8192x256, .f32⟩
  | .hbm, ⟨5, _⟩ => ⟨S8192x256, .f32⟩
  | .hbm, ⟨6, _⟩ => ⟨S256x1024, .f32⟩
  | .hbm, ⟨7, _⟩ => ⟨S256x1024, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S16x1024, .f32⟩
  | .hbm, ⟨13, _⟩ => ⟨S16x256, .f32⟩
  | .hbm, ⟨14, _⟩ => ⟨S256x16, .f32⟩
  | .hbm, ⟨15, _⟩ => ⟨S256x256, .f32⟩
  | .hbm, ⟨16, _⟩ => ⟨S1024x256, .f32⟩
  | .hbm, ⟨17, _⟩ => ⟨S1024x256, .f32⟩
  | .hbm, ⟨18, _⟩ => ⟨S1024x256, .bf16⟩
  | .hbm, ⟨19, _⟩ => ⟨S1024x256, .f32⟩
  | .hbm, ⟨20, _⟩ => ⟨S1024x256, .bf16⟩
  | .hbm, ⟨21, _⟩ => ⟨S256x256, .f32⟩
  | .hbm, ⟨22, _⟩ => ⟨S256x256, .bf16⟩
  | .hbm, ⟨23, _⟩ => ⟨S256x256, .f32⟩
  | .hbm, ⟨24, _⟩ => ⟨S256x256, .bf16⟩
  | .hbm, ⟨25, _⟩ => ⟨S256x256, .f32⟩
  | .hbm, ⟨26, _⟩ => ⟨S256x256, .bf16⟩
  | .hbm, ⟨27, _⟩ => ⟨S256x256, .f32⟩
  | .hbm, ⟨28, _⟩ => ⟨S256x256, .bf16⟩
  | .hbm, ⟨29, _⟩ => ⟨S1024x16, .f32⟩
  | .hbm, ⟨30, _⟩ => ⟨S1024x16, .bf16⟩
  | .hbm, ⟨31, _⟩ => ⟨S_, .f32⟩
  | .hbm, ⟨32, _⟩ => ⟨S16x256, .f32⟩
  | .hbm, ⟨33, _⟩ => ⟨S16x256, .f32⟩
  | .hbm, ⟨34, _⟩ => ⟨S256x16, .f32⟩
  | .hbm, ⟨35, _⟩ => ⟨S256x16, .bf16⟩
  | .hbm, ⟨36, _⟩ => ⟨S_, .f32⟩
  | .hbm, ⟨37, _⟩ => ⟨S256x16, .f32⟩
  | .hbm, ⟨38, _⟩ => ⟨S256x16, .f32⟩
  | .hbm, ⟨39, _⟩ => ⟨S16x256, .f32⟩
  | .hbm, ⟨40, _⟩ => ⟨S16x256, .bf16⟩
  | .hbm, ⟨41, _⟩ => ⟨S256x256, .f32⟩
  | .hbm, ⟨42, _⟩ => ⟨S256x256, .bf16⟩
  | .hbm, ⟨43, _⟩ => ⟨S256x1024, .f32⟩
  | .hbm, ⟨44, _⟩ => ⟨S256x1024, .bf16⟩
  | .hbm, ⟨45, _⟩ => ⟨S8192x1024, .f32⟩
  | .hbm, ⟨46, _⟩ => ⟨S8192x256, .f32⟩
  | .hbm, ⟨47, _⟩ => ⟨S8192x256, .f32⟩
  | .hbm, ⟨48, _⟩ => ⟨S8192x256, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192x256, .f32⟩
  | .hbm, ⟨56, _⟩ => ⟨S8192x256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192x256, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x16, .f32⟩
  | .local _ .vmem, ⟨7, _⟩ => ⟨S1024x16, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S1024x16, .bf16⟩
  | .local _ .vmem, ⟨19, _⟩ => ⟨S256x16, .bf16⟩
  | .local _ .vmem, ⟨20, _⟩ => ⟨S16x256, .bf16⟩
  | .local _ .vmem, ⟨21, _⟩ => ⟨S256x256, .bf16⟩
  | .local _ .vmem, ⟨22, _⟩ => ⟨S256x1024, .bf16⟩
  | .local _ .vmem, ⟨23, _⟩ => ⟨S1024x1024, .f32⟩
  | .local _ .vmem, ⟨24, _⟩ => ⟨S1024x1024, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_cst : Ref sig .tc := ⟨.hbm, 31, rfl⟩
abbrev main_call0_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_cst : Ref sig .tc := ⟨.hbm, 36, rfl⟩
abbrev main_call1_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_v24_2 : Ref sig .tc := ⟨.hbm, 47, rfl⟩
abbrev main_v24_3 : Ref sig .tc := ⟨.hbm, 48, rfl⟩
abbrev main_v25 : Ref sig .tc := ⟨.hbm, 49, rfl⟩
abbrev main_v26 : Ref sig .tc := ⟨.hbm, 50, rfl⟩
abbrev main_cst : Ref sig .tc := ⟨.hbm, 51, rfl⟩
abbrev main_v27 : Ref sig .tc := ⟨.hbm, 52, rfl⟩
abbrev main_cst_0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_1 : Ref sig .tc := ⟨.hbm, 57, rfl⟩
abbrev main_v31 : Ref sig .tc := ⟨.hbm, 58, rfl⟩
abbrev main_cst_2 : Ref sig .tc := ⟨.hbm, 59, rfl⟩
abbrev main_v32 : Ref sig .tc := ⟨.hbm, 60, rfl⟩
abbrev main_v33 : Ref sig .tc := ⟨.hbm, 61, rfl⟩
abbrev main_cst_3 : Ref sig .tc := ⟨.hbm, 62, rfl⟩
abbrev main_v34 : Ref sig .tc := ⟨.hbm, 63, rfl⟩
abbrev main_cst_4 : Ref sig .tc := ⟨.hbm, 64, rfl⟩
abbrev main_v35 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x16 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x16 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  transposes_S256x1024_S1024x256_1_0 : S256x1024.Transposes [1, 0] S1024x256
  bitsLt_bf16_f32 : FTy.bits .bf16 < FTy.bits .f32
  transposes_S256x256_S256x256_1_0 : S256x256.Transposes [1, 0] S256x256
  transposes_S16x1024_S1024x16_1_0 : S16x1024.Transposes [1, 0] S1024x16
  bcast_S_S16x256 : S_.BroadcastsInDim S16x256 (![] : Fin 0 → Fin S16x256.rank)
  transposes_S16x256_S256x16_1_0 : S16x256.Transposes [1, 0] S256x16
  bcast_S_S256x16 : S_.BroadcastsInDim S256x16 (![] : Fin 0 → Fin S256x16.rank)
  transposes_S256x16_S16x256_1_0 : S256x16.Transposes [1, 0] S16x256
  transposes_S1024x256_S256x1024_1_0 : S1024x256.Transposes [1, 0] S256x1024
  inb_S1024x1024_S1024x1024_0_0 : ∀ a, (![0, 0] : Fin 2 → Nat) a + S1024x1024.size a ≤ S1024x1024.size a
  h_S1024x1024 : 0 < S1024x1024.numel
  inb_S1024x256_S1024x256_0_0 : ∀ a, (![0, 0] : Fin 2 → Nat) a + S1024x256.size a ≤ S1024x256.size a
  h_S1024x256 : 0 < S1024x256.numel
  inb_S1024x16_S1024x16_0_0 : ∀ a, (![0, 0] : Fin 2 → Nat) a + S1024x16.size a ≤ S1024x16.size a
  h_S1024x16 : 0 < S1024x16.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1024x16_S1024x16 : S1024x16.ShapeCasts S1024x16
  inb_S256x16_S256x16_0_0 : ∀ a, (![0, 0] : Fin 2 → Nat) a + S256x16.size a ≤ S256x16.size a
  h_S256x16 : 0 < S256x16.numel
  shapeCasts_S256x16_S256x16 : S256x16.ShapeCasts S256x16
  shapeCasts_S1024x256_S1024x256 : S1024x256.ShapeCasts S1024x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reducesTo_S8192x1024_S_d0_1 : S8192x1024.ReducesTo [0, 1] S_
  h_S_ : 0 < S_.numel
  reducesTo_S8192x256_S_d0_1 : S8192x256.ReducesTo [0, 1] S_
  dot_S1024x256_S256x256_S1024x256_1_0_0_1_n_n_wf : DotDims.WF S1024x256 S256x256 S1024x256 [1] [0] [0] [1] [] []
  dot_S1024x1024_S1024x16_S1024x16_1_0_0_1_n_n_wf : DotDims.WF S1024x1024 S1024x16 S1024x16 [1] [0] [0] [1] [] []
  dot_S1024x256_S256x16_S1024x16_1_0_0_1_n_n_wf : DotDims.WF S1024x256 S256x16 S1024x16 [1] [0] [0] [1] [] []
  dot_S1024x1024_S1024x256_S1024x256_1_0_0_1_n_n_wf : DotDims.WF S1024x1024 S1024x256 S1024x256 [1] [0] [0] [1] [] []
  dot_S1024x16_S16x256_S1024x256_1_0_0_1_n_n_wf : DotDims.WF S1024x16 S16x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S8192x16.size a
  hwx0_3 : ∀ i : grid0.Coords, EltTy.bits .f32 = 32 ∨ (Rect.block (s := S8192x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x256.size a
  hwx0_6 : ∀ i : grid0.Coords, EltTy.bits .bf16 = 32 ∨ (Rect.block (s := S1024x256) S1024x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S1024x256.size a
  hwx0_7 : ∀ i : grid0.Coords, EltTy.bits .bf16 = 32 ∨ (Rect.block (s := S1024x256) S1024x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x16.size a ≤ S1024x16.size a
  hwx0_12 : ∀ i : grid0.Coords, EltTy.bits .bf16 = 32 ∨ (Rect.block (s := S1024x16) S1024x16.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x16.size a ≤ S256x16.size a
  hwx0_13 : ∀ i : grid0.Coords, EltTy.bits .bf16 = 32 ∨ (Rect.block (s := S256x16) S256x16.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16x256.size a ≤ S16x256.size a
  hwx0_14 : ∀ i : grid0.Coords, EltTy.bits .bf16 = 32 ∨ (Rect.block (s := S16x256) S16x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S256x1024.size a
  hwx0_16 : ∀ i : grid0.Coords, EltTy.bits .bf16 = 32 ∨ (Rect.block (s := S256x1024) S256x1024.size (cc0_transform_16 i) (hinb0_16 i)).WholeWords (EltTy.packing .bf16)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x1024.size a ≤ S8192x1024.size a
  hwx0_17 : ∀ i : grid0.Coords, EltTy.bits .f32 = 32 ∨ (Rect.block (s := S8192x1024) S1024x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x256.size a ≤ S8192x256.size a
  hwx0_18 : ∀ i : grid0.Coords, EltTy.bits .f32 = 32 ∨ (Rect.block (s := S8192x256) S1024x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x256.size a ≤ S8192x256.size a
  hwx0_19 : ∀ i : grid0.Coords, EltTy.bits .f32 = 32 ∨ (Rect.block (s := S8192x256) S1024x256.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x256.size a ≤ S8192x256.size a
  hwx0_20 : ∀ i : grid0.Coords, EltTy.bits .f32 = 32 ∨ (Rect.block (s := S8192x256) S1024x256.size (cc0_transform_20 i) (hinb0_20 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x256_S256x16_S1024x16_1_0_0_1_n_n : DotDims S1024x256 S256x16 S1024x16 where
  lhsContracting := [1]
  rhsContracting := [0]
  lhsNonContracting := [0]
  rhsNonContracting := [1]
  lhsBatch := []
  rhsBatch := []
  wf := dot_S1024x256_S256x16_S1024x16_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1024x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S256x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S16x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v21) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v23) S256x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v24_0) S1024x1024.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v24_1) S1024x256.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v24_2) S1024x256.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v24_3) S1024x256.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x256 : Shape := ⟨2, ![8192, 256]⟩
abbrev S8192x16 : Shape := ⟨2, ![8192, 16]⟩
abbrev S256x1024 : Shape := ⟨2, ![256, 1024]⟩
abbrev S256x256 : Shape := ⟨2, ![256, 256]⟩
abbrev S16x1024 : Shape := ⟨2, ![16, 1024]⟩
abbrev S16x256 : Shape := ⟨2, ![16, 256]⟩
abbrev S256x16 : Shape := ⟨2, ![256, 16]⟩
abbrev S1024x256 : Shape := ⟨2, ![1024, 256]⟩
abbrev S_ : Shape := ⟨0, ![]⟩
abbrev S1024x16 : Shape := ⟨2, ![1024, 16]⟩

abbrev nBuf : Space → Nat
  | .hbm => 153
  | .vmem => 0
  | .smem => 0
  | _ => 0

abbrev hbmTy0_0 (i : Nat) : BufTy := match i % 128 with
  | 0 => ⟨S8192x1024, .f32⟩
  | 1 => ⟨S8192x256, .f32⟩
  | 2 => ⟨S8192x256, .f32⟩
  | 3 => ⟨S8192x16, .f32⟩
  | 4 => ⟨S8192x256, .f32⟩
  | 5 => ⟨S8192x256, .f32⟩
  | 6 => ⟨S256x1024, .f32⟩
  | 7 => ⟨S256x1024, .f32⟩
  | 8 => ⟨S256x256, .f32⟩
  | 9 => ⟨S256x256, .f32⟩
  | 10 => ⟨S256x256, .f32⟩
  | 11 => ⟨S256x256, .f32⟩
  | 12 => ⟨S16x1024, .f32⟩
  | 13 => ⟨S16x256, .f32⟩
  | 14 => ⟨S256x16, .f32⟩
  | 15 => ⟨S256x256, .f32⟩
  | 16 => ⟨S1024x256, .f32⟩
  | 17 => ⟨S256x256, .f32⟩
  | 18 => ⟨S8192x256, .f32⟩
  | 19 => ⟨S_, .f32⟩
  | 20 => ⟨S8192x256, .f32⟩
  | 21 => ⟨S8192x256, .f32⟩
  | 22 => ⟨S256x256, .f32⟩
  | 23 => ⟨S8192x256, .f32⟩
  | 24 => ⟨S_, .f32⟩
  | 25 => ⟨S8192x256, .f32⟩
  | 26 => ⟨S8192x256, .f32⟩
  | 27 => ⟨S_, .f32⟩
  | 28 => ⟨S8192x256, .f32⟩
  | 29 => ⟨S8192x256, .f32⟩
  | 30 => ⟨S8192x256, .f32⟩
  | 31 => ⟨S8192x256, .f32⟩
  | 32 => ⟨S8192x256, .i1⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S_, .f32⟩
  | 42 => ⟨S8192x256, .f32⟩
  | 43 => ⟨S8192x256, .f32⟩
  | 44 => ⟨S_, .f32⟩
  | 45 => ⟨S8192x16, .f32⟩
  | 46 => ⟨S8192x16, .f32⟩
  | 47 => ⟨S1024x16, .f32⟩
  | 48 => ⟨S8192x16, .f32⟩
  | 49 => ⟨S_, .f32⟩
  | 50 => ⟨S8192x16, .f32⟩
  | 51 => ⟨S8192x16, .f32⟩
  | 52 => ⟨S8192x16, .f32⟩
  | 53 => ⟨S_, .f32⟩
  | 54 => ⟨S16x256, .f32⟩
  | 55 => ⟨S16x256, .f32⟩
  | 56 => ⟨S256x16, .f32⟩
  | 57 => ⟨S8192x16, .f32⟩
  | 58 => ⟨S8192x16, .f32⟩
  | 59 => ⟨S_, .f32⟩
  | 60 => ⟨S8192x16, .f32⟩
  | 61 => ⟨S8192x16, .f32⟩
  | 62 => ⟨S_, .f32⟩
  | 63 => ⟨S8192x16, .f32⟩
  | 64 => ⟨S8192x16, .f32⟩
  | 65 => ⟨S8192x16, .f32⟩
  | 66 => ⟨S8192x16, .f32⟩
  | 67 => ⟨S8192x16, .i1⟩
  | 68 => ⟨S8192x16, .f32⟩
  | 69 => ⟨S8192x16, .f32⟩
  | 70 => ⟨S8192x16, .f32⟩
  | 71 => ⟨S8192x16, .f32⟩
  | 72 => ⟨S8192x16, .f32⟩
  | 73 => ⟨S8192x16, .f32⟩
  | 74 => ⟨S8192x16, .f32⟩
  | 75 => ⟨S8192x16, .f32⟩
  | 76 => ⟨S_, .f32⟩
  | 77 => ⟨S8192x16, .f32⟩
  | 78 => ⟨S8192x16, .f32⟩
  | 79 => ⟨S_, .f32⟩
  | 80 => ⟨S8192x16, .f32⟩
  | 81 => ⟨S8192x16, .f32⟩
  | 82 => ⟨S1024x256, .f32⟩
  | 83 => ⟨S8192x256, .f32⟩
  | 84 => ⟨S_, .f32⟩
  | 85 => ⟨S8192x256, .f32⟩
  | 86 => ⟨S8192x256, .f32⟩
  | 87 => ⟨S1024x256, .f32⟩
  | 88 => ⟨S8192x256, .f32⟩
  | 89 => ⟨S_, .f32⟩
  | 90 => ⟨S8192x256, .f32⟩
  | 91 => ⟨S8192x256, .f32⟩
  | 92 => ⟨S8192x256, .f32⟩
  | 93 => ⟨S8192x256, .f32⟩
  | 94 => ⟨S_, .f32⟩
  | 95 => ⟨S_, .f32⟩
  | 96 => ⟨S_, .f32⟩
  | 97 => ⟨S8192x256, .f32⟩
  | 98 => ⟨S8192x256, .f32⟩
  | 99 => ⟨S_, .f32⟩
  | 100 => ⟨S8192x256, .f32⟩
  | 101 => ⟨S8192x256, .f32⟩
  | 102 => ⟨S_, .f32⟩
  | 103 => ⟨S256x16, .f32⟩
  | 104 => ⟨S256x16, .f32⟩
  | 105 => ⟨S16x256, .f32⟩
  | 106 => ⟨S8192x256, .f32⟩
  | 107 => ⟨S_, .f32⟩
  | 108 => ⟨S8192x256, .f32⟩
  | 109 => ⟨S8192x256, .f32⟩
  | 110 => ⟨S8192x256, .f32⟩
  | 111 => ⟨S_, .f32⟩
  | 112 => ⟨S8192x256, .f32⟩
  | 113 => ⟨S8192x256, .f32⟩
  | 114 => ⟨S256x256, .f32⟩
  | 115 => ⟨S8192x256, .f32⟩
  | 116 => ⟨S256x1024, .f32⟩
  | 117 => ⟨S8192x1024, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S256x256, .f32⟩
  | 127 => ⟨S8192x256, .f32⟩
  | _ => ⟨S8192x1024, .f32⟩

abbrev hbmTy0_1 (i : Nat) : BufTy := match i % 128 with
  | 0 => ⟨S256x256, .f32⟩
  | 1 => ⟨S8192x256, .f32⟩
  | 2 => ⟨S8192x256, .f32⟩
  | 3 => ⟨S_, .f32⟩
  | 4 => ⟨S8192x256, .f32⟩
  | 5 => ⟨S8192x256, .f32⟩
  | 6 => ⟨S8192x256, .f32⟩
  | 7 => ⟨S8192x256, .f32⟩
  | 8 => ⟨S8192x1024, .f32⟩
  | 9 => ⟨S8192x1024, .f32⟩
  | 10 => ⟨S_, .f32⟩
  | 11 => ⟨S_, .f32⟩
  | 12 => ⟨S_, .f32⟩
  | 13 => ⟨S_, .f32⟩
  | 14 => ⟨S8192x256, .f32⟩
  | 15 => ⟨S8192x256, .f32⟩
  | 16 => ⟨S_, .f32⟩
  | 17 => ⟨S_, .f32⟩
  | 18 => ⟨S_, .f32⟩
  | 19 => ⟨S_, .f32⟩
  | 20 => ⟨S8192x256, .f32⟩
  | 21 => ⟨S_, .f32⟩
  | 22 => ⟨S_, .f32⟩
  | 23 => ⟨S_, .f32⟩
  | 24 => ⟨S_, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_call0_cst : Ref sig .tc := ⟨.hbm, 19, rfl⟩
abbrev main_call0_v0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_v7 : Ref sig .tc := ⟨.hbm, 40, rfl⟩
abbrev main_cst_0 : Ref sig .tc := ⟨.hbm, 41, rfl⟩
abbrev main_v8 : Ref sig .tc := ⟨.hbm, 42, rfl⟩
abbrev main_v9 : Ref sig .tc := ⟨.hbm, 43, rfl⟩
abbrev main_cst_1 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_2 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_call2_cst : Ref sig .tc := ⟨.hbm, 53, rfl⟩
abbrev main_call2_v0 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_3 : Ref sig .tc := ⟨.hbm, 59, rfl⟩
abbrev main_v21 : Ref sig .tc := ⟨.hbm, 60, rfl⟩
abbrev main_v22 : Ref sig .tc := ⟨.hbm, 61, rfl⟩
abbrev main_call3_cst : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_v23 : Ref sig .tc := ⟨.hbm, 75, rfl⟩
abbrev main_cst_4 : Ref sig .tc := ⟨.hbm, 76, rfl⟩
abbrev main_v24 : Ref sig .tc := ⟨.hbm, 77, rfl⟩
abbrev main_v25 : Ref sig .tc := ⟨.hbm, 78, rfl⟩
abbrev main_cst_5 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_call4_cst : Ref sig .tc := ⟨.hbm, 84, rfl⟩
abbrev main_call4_v0 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_call5_cst : Ref sig .tc := ⟨.hbm, 89, rfl⟩
abbrev main_call5_v0 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_cst_6 : Ref sig .tc := ⟨.hbm, 94, rfl⟩
abbrev main_cst_7 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_v36 : Ref sig .tc := ⟨.hbm, 101, rfl⟩
abbrev main_call7_cst : Ref sig .tc := ⟨.hbm, 102, rfl⟩
abbrev main_call7_v0 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_8 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_call8_cst : Ref sig .tc := ⟨.hbm, 111, rfl⟩
abbrev main_call8_v0 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_cst_9 : Ref sig .tc := ⟨.hbm, 120, rfl⟩
abbrev main_v50 : Ref sig .tc := ⟨.hbm, 121, rfl⟩
abbrev main_v51 : Ref sig .tc := ⟨.hbm, 122, rfl⟩
abbrev main_cst_10 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_call9_cst : Ref sig .tc := ⟨.hbm, 131, rfl⟩
abbrev main_call9_v0 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_cst_11 : Ref sig .tc := ⟨.hbm, 138, rfl⟩
abbrev main_v64 : Ref sig .tc := ⟨.hbm, 139, rfl⟩
abbrev main_cst_12 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_cst_13 : Ref sig .tc := ⟨.hbm, 144, rfl⟩
abbrev main_v68 : Ref sig .tc := ⟨.hbm, 145, rfl⟩
abbrev main_cst_14 : Ref sig .tc := ⟨.hbm, 146, rfl⟩
abbrev main_v69 : Ref sig .tc := ⟨.hbm, 147, rfl⟩
abbrev main_v70 : Ref sig .tc := ⟨.hbm, 148, rfl⟩
abbrev main_cst_15 : Ref sig .tc := ⟨.hbm, 149, rfl⟩
abbrev main_v71 : Ref sig .tc := ⟨.hbm, 150, rfl⟩
abbrev main_cst_16 : Ref sig .tc := ⟨.hbm, 151, rfl⟩
abbrev main_v72 : Ref sig .tc := ⟨.hbm, 152, rfl⟩

abbrev nD : Nat := 1
abbrev τ : Topo := Topo.v7x

variable {F : FTy → Type} [FloatOps F]

class Facts₀ : Prop where
  transposes_S256x256_S256x256_1_0 : S256x256.Transposes [1, 0] S256x256
  bcast_S_S8192x256 : S_.BroadcastsInDim S8192x256 (![] : Fin 0 → Fin S8192x256.rank)
  bcast_S_S8192x16 : S_.BroadcastsInDim S8192x16 (![] : Fin 0 → Fin S8192x16.rank)
  transposes_S16x1024_S1024x16_1_0 : S16x1024.Transposes [1, 0] S1024x16
  bcast_S_S16x256 : S_.BroadcastsInDim S16x256 (![] : Fin 0 → Fin S16x256.rank)
  transposes_S16x256_S256x16_1_0 : S16x256.Transposes [1, 0] S256x16
  transposes_S256x1024_S1024x256_1_0 : S256x1024.Transposes [1, 0] S1024x256
  bcast_S_S256x16 : S_.BroadcastsInDim S256x16 (![] : Fin 0 → Fin S256x16.rank)
  transposes_S256x16_S16x256_1_0 : S256x16.Transposes [1, 0] S16x256
  transposes_S1024x256_S256x1024_1_0 : S1024x256.Transposes [1, 0] S256x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  reducesTo_S8192x256_S_d0_1 : S8192x256.ReducesTo [0, 1] S_
  dot_S8192x256_S256x256_S8192x256_1_0_0_1_n_n_wf : DotDims.WF S8192x256 S256x256 S8192x256 [1] [0] [0] [1] [] []
  dot_S8192x1024_S1024x16_S8192x16_1_0_0_1_n_n_wf : DotDims.WF S8192x1024 S1024x16 S8192x16 [1] [0] [0] [1] [] []
  dot_S8192x256_S256x16_S8192x16_1_0_0_1_n_n_wf : DotDims.WF S8192x256 S256x16 S8192x16 [1] [0] [0] [1] [] []
  dot_S8192x1024_S1024x256_S8192x256_1_0_0_1_n_n_wf : DotDims.WF S8192x1024 S1024x256 S8192x256 [1] [0] [0] [1] [] []
  dot_S8192x16_S16x256_S8192x256_1_0_0_1_n_n_wf : DotDims.WF S8192x16 S16x256 S8192x256 [1] [0] [0] [1] [] []
  dot_S8192x256_S256x1024_S8192x1024_1_0_0_1_n_n_wf : DotDims.WF S8192x256 S256x1024 S8192x1024 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x1024_S1024x16_S8192x16_1_0_0_1_n_n : DotDims S8192x1024 S1024x16 S8192x16 where
  lhsContracting := [1]
  rhsContracting := [0]
  lhsNonContracting := [0]
  rhsNonContracting := [1]
  lhsBatch := []
  rhsBatch := []
  wf := dot_S8192x1024_S1024x16_S8192x16_1_0_0_1_n_n_wf
def dot_S8192x256_S256x16_S8192x16_1_0_0_1_n_n : DotDims S8192x256 S256x16 S8192x16 where
  lhsContracting := [1]
  rhsContracting := [0]
  lhsNonContracting := [0]
  rhsNonContracting := [1]
  lhsBatch := []
  rhsBatch := []
  wf := dot_S8192x256_S256x16_S8192x16_1_0_0_1_n_n_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x16_S16x256_S8192x256_1_0_0_1_n_n : DotDims S8192x16 S16x256 S8192x256 where
  lhsContracting := [1]
  rhsContracting := [0]
  lhsNonContracting := [0]
  rhsNonContracting := [1]
  lhsBatch := []
  rhsBatch := []
  wf := dot_S8192x16_S16x256_S8192x256_1_0_0_1_n_n_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf

class Facts : Prop extends Facts₀ where

variable [Facts]
-- ==== Proof.Spec.lean ====
/-
  The mathematics of one step of the model, as functions on the extended reals, row by row.

  Every result row depends on the same row of the batch inputs (the observation `I`, the previous states `h`, `zm`,
  the thresholds' state `th`, the two noises) and on the whole weight matrices. For a weight matrix `W` with rows
  indexed by outputs, "the input row times `Wᵀ`" at output `j` is `∑ k, u k * W (j, k)`. The pieces:

    prior mean        `muP j    = relu (h · W10ᵀ) j`
    prior spread      `sigP j   = softplus (1.2 · (h · W11ᵀ) j) / 1.2`
    threshold state   `theta d  = 0.001 · (softplus (0.5 · ((0.5 · th d + 0.1 · (I · W12ᵀ) d) − ∑ j, sigP j · relu W13 (d, j))) / 0.5)`
    sample            `z j      = relu (clip₀¹ (relu (I · W6ᵀ) j + ez j · relu (I · W7ᵀ) j) − 10 · ∑ d, theta d · relu W14 (j, d))`
    reconstruction    `ihat c   = logistic (((z · W15ᵀ) · W16ᵀ) c)`
    next state        `hnew j   = relu ((zm · W8ᵀ) j + (h · W9ᵀ) j)`
    prior sample      `zhat j   = muP j + ezh j · sigP j`

  `softplus x = max x 0 + log (1 + exp (−|x − 0|))`, with `|a| = max a (−a)`; the float constants are kept as their
  binary words (the same words occur on both sides of the comparison, so their values never matter, except for the
  words of 0 and 1). The arrays of results are the same functions applied to each row, for any number `n` of rows:
  at `n = 1024` they describe one block of rows, at `n = 8192` the whole batch.
-/
import Idealize.ShloMosaic.PureOps.Ideal
import Idealize.ShloMosaic.PureOps.Ideal.Laws
import Idealize.ShloMosaic.Lib.ValueIdx

noncomputable section

namespace Cert.Step

open Idealize.ShloMosaic Idealize.ShloMosaic.ValueIdx

/-- A matrix of extended reals with `a` rows and `b` columns, as a function of its two-coordinate index. -/
abbrev Mat (a b : ℕ) : Type := (⟨2, ![a, b]⟩ : Shape).Idx → EReal

/-- Row `r` of a matrix. -/
def row {a b : ℕ} (x : Mat a b) (r : Fin a) : Fin b → EReal := fun k => x (ix2 r k)

theorem row_apply {a b : ℕ} (x : Mat a b) (r : Fin a) (k : Fin b) : row x r k = x (ix2 r k) := rfl

/-- The float words that occur, read as extended reals. -/
abbrev w0 : EReal := Ideal.ofBits .f32 0x00000000#32
abbrev w1 : EReal := Ideal.ofBits .f32 0x3F800000#32
abbrev wHalf : EReal := Ideal.ofBits .f32 0x3F000000#32
abbrev w12 : EReal := Ideal.ofBits .f32 0x3F99999A#32
abbrev wTenth : EReal := Ideal.ofBits .f32 0x3DCCCCCD#32
abbrev wMilli : EReal := Ideal.ofBits .f32 0x3A83126F#32
abbrev wTen : EReal := Ideal.ofBits .f32 0x41200000#32

/-- `max x 0`. -/
def relu (x : EReal) : EReal := max x w0

/-- `max x 0 + log (1 + exp (−|x − 0|))`, the overflow-free form of `log (1 + exp x)`. -/
def softplus (x : EReal) : EReal := max x w0 + Ideal.log1p (Ideal.exp (-(max (x - w0) (-(x - w0)))))

/-- The product of a row with a column. -/
def dot {n : ℕ} (u v : Fin n → EReal) : EReal := ∑ k : Fin n, u k * v k

/-- Prior mean. -/
def muP (h : Fin 256 → EReal) (W10 : Mat 256 256) (j : Fin 256) : EReal := relu (dot h (row W10 j))

/-- Prior spread. -/
def sigP (h : Fin 256 → EReal) (W11 : Mat 256 256) (j : Fin 256) : EReal :=
  Ideal.div (softplus (w12 * dot h (row W11 j))) w12

/-- The threshold state. -/
def theta (I : Fin 1024 → EReal) (h : Fin 256 → EReal) (th : Fin 16 → EReal) (W11 : Mat 256 256) (W12 : Mat 16 1024)
    (W13 : Mat 16 256) (d : Fin 16) : EReal :=
  wMilli * Ideal.div (softplus (wHalf * ((wHalf * th d + wTenth * dot I (row W12 d))
    - ∑ j : Fin 256, sigP h W11 j * relu (W13 (ix2 d j))))) wHalf

/-- The posterior sample after thresholding. -/
def zq (I : Fin 1024 → EReal) (h : Fin 256 → EReal) (th : Fin 16 → EReal) (ez : Fin 256 → EReal) (W6 W7 : Mat 256 1024)
    (W11 : Mat 256 256) (W12 : Mat 16 1024) (W13 : Mat 16 256) (W14 : Mat 256 16) (j : Fin 256) : EReal :=
  relu (min w1 (max w0 (relu (dot I (row W6 j)) + ez j * relu (dot I (row W7 j))))
    - wTen * ∑ d : Fin 16, theta I h th W11 W12 W13 d * relu (W14 (ix2 j d)))

/-- The reconstruction. -/
def ihat (I : Fin 1024 → EReal) (h : Fin 256 → EReal) (th : Fin 16 → EReal) (ez : Fin 256 → EReal) (W6 W7 : Mat 256 1024)
    (W11 : Mat 256 256) (W12 : Mat 16 1024) (W13 : Mat 16 256) (W14 : Mat 256 16) (W15 : Mat 256 256) (W16 : Mat 1024 256)
    (c : Fin 1024) : EReal :=
  Ideal.logistic (∑ j : Fin 256, (∑ k : Fin 256, zq I h th ez W6 W7 W11 W12 W13 W14 k * W15 (ix2 j k)) * W16 (ix2 c j))

/-- The next higher state. -/
def hnew (h zm : Fin 256 → EReal) (W8 W9 : Mat 256 256) (j : Fin 256) : EReal :=
  relu (dot zm (row W8 j) + dot h (row W9 j))

/-- The prior sample. -/
def zhat (h ezh : Fin 256 → EReal) (W10 W11 : Mat 256 256) (j : Fin 256) : EReal :=
  muP h W10 j + ezh j * sigP h W11 j

/-! ## The result arrays, for any number of rows -/

/-- The reconstructions of all rows. -/
def IhatArr {n : ℕ} (x0 : Mat n 1024) (x1 : Mat n 256) (x3 : Mat n 16) (x4 : Mat n 256) (W6 W7 : Mat 256 1024)
    (W11 : Mat 256 256) (W12 : Mat 16 1024) (W13 : Mat 16 256) (W14 : Mat 256 16) (W15 : Mat 256 256) (W16 : Mat 1024 256) :
    Mat n 1024 :=
  fun i => ihat (row x0 (i 0)) (row x1 (i 0)) (row x3 (i 0)) (row x4 (i 0)) W6 W7 W11 W12 W13 W14 W15 W16 (i 1)

/-- The samples of all rows. -/
def ZArr {n : ℕ} (x0 : Mat n 1024) (x1 : Mat n 256) (x3 : Mat n 16) (x4 : Mat n 256) (W6 W7 : Mat 256 1024)
    (W11 : Mat 256 256) (W12 : Mat 16 1024) (W13 : Mat 16 256) (W14 : Mat 256 16) : Mat n 256 :=
  fun i => zq (row x0 (i 0)) (row x1 (i 0)) (row x3 (i 0)) (row x4 (i 0)) W6 W7 W11 W12 W13 W14 (i 1)

/-- The next states of all rows. -/
def HArr {n : ℕ} (x1 x2 : Mat n 256) (W8 W9 : Mat 256 256) : Mat n 256 :=
  fun i => hnew (row x1 (i 0)) (row x2 (i 0)) W8 W9 (i 1)

/-- The prior samples of all rows. -/
def ZhatArr {n : ℕ} (x1 x5 : Mat n 256) (W10 W11 : Mat 256 256) : Mat n 256 :=
  fun i => zhat (row x1 (i 0)) (row x5 (i 0)) W10 W11 (i 1)

/-! ## The two words whose values matter -/

theorem w1_eq : w1 = 1 := by
  have h : Ideal.ofBits .f32 0x3F800000#32 = ((1 : ℝ) : EReal) := by
    simp [Ideal.ofBits, Ideal.ieee, -EReal.coe_mul]; norm_num
  exact h.trans EReal.coe_one

/-- The host's spelling of the logistic function, `1 / (1 + exp (−x))` with the float word of one. -/
theorem div_one_add_exp_neg (x : EReal) : Ideal.div w1 (w1 + Ideal.exp (-x)) = Ideal.logistic x := by
  rw [w1_eq]; rfl

/-- Subtracting from the float word of zero negates. -/
theorem w0_sub (a : EReal) : w0 - a = -a := by
  show Ideal.ofBits .f32 0x00000000#32 - a = -a
  rw [Ideal.ofBits_zero_f32, zero_sub]

end Cert.Step

end
-- ==== Proof.Tail.lean ====
/-
  The three scalar summaries the program returns beside its arrays: the mean squared difference of two arrays and the
  mean absolute value of an array, each "sum of all entries, divided by the float word of the number of entries"
  (`0x4B000000` is 8192 · 1024, `0x4A000000` is 8192 · 256). Both programs apply exactly these operations to their
  arrays, so each is kept as ONE function of the arrays and never opened: equal arrays give equal summaries.
-/
import proofs.«138823_j77910706749637_1_alg».proof.Proof.Gen.KernelIdeal
import Idealize.ShloMosaic.PureOps.Ideal

noncomputable section

namespace Cert.Losses

open Idealize.ShloMosaic Cert.KernelIdeal Cert.KernelIdeal.Gen

/-- The mean of the squared differences of two 8192 × 1024 arrays. -/
def mseWide (a b : (⟨S8192x1024, .f32⟩ : BufTy).Contents (Elt Ideal)) : (⟨S_, .f32⟩ : BufTy).Contents (Elt Ideal) :=
  Host.divf (F := Ideal) (Host.reduceAdd (F := Ideal) (mulf (subf a b) (subf a b)) (constant (F := Ideal) S_ .f32 0x00000000#32)
    reducesTo_S8192x1024_S_d0_1 h_S_) (constant (F := Ideal) S_ .f32 0x4B000000#32)

/-- The mean of the squared differences of two 8192 × 256 arrays. -/
def mseNarrow (a b : (⟨S8192x256, .f32⟩ : BufTy).Contents (Elt Ideal)) : (⟨S_, .f32⟩ : BufTy).Contents (Elt Ideal) :=
  Host.divf (F := Ideal) (Host.reduceAdd (F := Ideal) (mulf (subf a b) (subf a b)) (constant (F := Ideal) S_ .f32 0x00000000#32)
    reducesTo_S8192x256_S_d0_1 h_S_) (constant (F := Ideal) S_ .f32 0x4A000000#32)

/-- The mean of the absolute values of an 8192 × 256 array. -/
def meanAbs (a : (⟨S8192x256, .f32⟩ : BufTy).Contents (Elt Ideal)) : (⟨S_, .f32⟩ : BufTy).Contents (Elt Ideal) :=
  Host.divf (F := Ideal) (Host.reduceAdd (F := Ideal) (Host.absf (F := Ideal) a) (constant (F := Ideal) S_ .f32 0x00000000#32)
    reducesTo_S8192x256_S_d0_1 h_S_) (constant (F := Ideal) S_ .f32 0x4A000000#32)

end Cert.Losses

end
-- ==== Proof.RefValue.lean ====
/-
  The reference program computes the specification.

  Each operation of the reference program is read at one index of its result; a product of a batch array with a
  transposed weight matrix, read at row `r` and column `j`, is the product of row `r` of the array with row `j` of the
  weight matrix. Following the program's operations in order gives, for each named intermediate of the mathematics
  (prior mean, prior spread, threshold state, sample, reconstruction, next state, prior sample), that the program's
  array at `(r, j)` is the specification's function of row `r` of the inputs, at `j`.
-/
import proofs.«138823_j77910706749637_1_alg».proof.Proof.Spec
import proofs.«138823_j77910706749637_1_alg».proof.Proof.Tail
import proofs.«138823_j77910706749637_1_alg».proof.Proof.Gen.ReferenceIdeal.Read

noncomputable section

namespace Cert.RefValue

open Idealize.ShloMosaic Idealize.ShloMosaic.ValueIdx Cert.ReferenceIdeal Cert.ReferenceIdeal.Read Cert.Step

/-- An array of extended reals of shape `s`. -/
abbrev A (s : Shape) : Type := (⟨s, .f32⟩ : BufTy).Contents (Elt Ideal)

/-- Two index functions of rank two agree when their two coordinates do. -/
macro "idx_eq" : tactic =>
  `(tactic| (funext a; refine Fin.ext ?_; match a with | ⟨0, _⟩ => rfl | ⟨1, _⟩ => rfl))

/-- No extended real differs from itself, so the comparison "not equal" of a value with itself is the bit 0. -/
theorem cmp_une_self (a : EReal) : Ideal.cmp .une a a = 0#1 := by
  simp [Ideal.cmp]

/-- The program's softplus selects `a + 0` where `a - 0` differs from itself, which is nowhere, and otherwise takes
    `max a 0 + log (1 + exp (-|a - 0|))`: the specification's softplus. -/
theorem softplus_ref (a : EReal) :
    Scalar.select (Ideal.cmp .une (a - w0) (a - w0)) (a + w0)
      (max a w0 + Ideal.log1p (Ideal.exp (-(max (a - w0) (-(a - w0)))))) = softplus a := by
  rw [cmp_une_self, select_zero]
  rfl

/-! ## The products of a batch array with a transposed weight matrix -/

/-- `h · W10ᵀ`. -/
theorem v1_at (x1 : A S8192x256) (x10 : A S256x256) (r : Fin 8192) (j : Fin 256) :
    val_main_v1 (F := Ideal) x1 x10 (ix2 r j) = dot (row x1 r) (row x10 j) := by
  rw [val_main_v1_apply]
  unfold dot
  refine Finset.sum_congr rfl fun k _ => ?_
  rw [val_main_v0_apply]
  have hl : lidx_main_v1 (ix2 r j) k = ix2 r k := by idx_eq
  have hr : idx_main_v0 (ridx_main_v1 (ix2 r j) k) = ix2 j k := by idx_eq
  rw [hl, hr]
  rfl

/-- `h · W11ᵀ`. -/
theorem v4_at (x1 : A S8192x256) (x11 : A S256x256) (r : Fin 8192) (j : Fin 256) :
    val_main_v4 (F := Ideal) x1 x11 (ix2 r j) = dot (row x1 r) (row x11 j) := by
  rw [val_main_v4_apply]
  unfold dot
  refine Finset.sum_congr rfl fun k _ => ?_
  rw [val_main_v3_apply]
  have hl : lidx_main_v4 (ix2 r j) k = ix2 r k := by idx_eq
  have hr : idx_main_v3 (ridx_main_v4 (ix2 r j) k) = ix2 j k := by idx_eq
  rw [hl, hr]
  rfl

/-- `I · W12ᵀ`. -/
theorem v13_at (x0 : A S8192x1024) (x12 : A S16x1024) (r : Fin 8192) (j : Fin 16) :
    val_main_v13 (F := Ideal) x0 x12 (ix2 r j) = dot (row x0 r) (row x12 j) := by
  rw [val_main_v13_apply]
  unfold dot
  refine Finset.sum_congr rfl fun k _ => ?_
  rw [val_main_v12_apply]
  have hl : lidx_main_v13 (ix2 r j) k = ix2 r k := by idx_eq
  have hr : idx_main_v12 (ridx_main_v13 (ix2 r j) k) = ix2 j k := by idx_eq
  rw [hl, hr]
  rfl

/-- `I · W6ᵀ`. -/
theorem v29_at (x0 : A S8192x1024) (x6 : A S256x1024) (r : Fin 8192) (j : Fin 256) :
    val_main_v29 (F := Ideal) x0 x6 (ix2 r j) = dot (row x0 r) (row x6 j) := by
  rw [val_main_v29_apply]
  unfold dot
  refine Finset.sum_congr rfl fun k _ => ?_
  rw [val_main_v28_apply]
  have hl : lidx_main_v29 (ix2 r j) k = ix2 r k := by idx_eq
  have hr : idx_main_v28 (ridx_main_v29 (ix2 r j) k) = ix2 j k := by idx_eq
  rw [hl, hr]
  rfl

/-- `I · W7ᵀ`. -/
theorem v32_at (x0 : A S8192x1024) (x7 : A S256x1024) (r : Fin 8192) (j : Fin 256) :
    val_main_v32 (F := Ideal) x0 x7 (ix2 r j) = dot (row x0 r) (row x7 j) := by
  rw [val_main_v32_apply]
  unfold dot
  refine Finset.sum_congr rfl fun k _ => ?_
  rw [val_main_v31_apply]
  have hl : lidx_main_v32 (ix2 r j) k = ix2 r k := by idx_eq
  have hr : idx_main_v31 (ridx_main_v32 (ix2 r j) k) = ix2 j k := by idx_eq
  rw [hl, hr]
  rfl

/-- `zm · W8ᵀ`. -/
theorem v55_at (x2 : A S8192x256) (x8 : A S256x256) (r : Fin 8192) (j : Fin 256) :
    val_main_v55 (F := Ideal) x2 x8 (ix2 r j) = dot (row x2 r) (row x8 j) := by
  rw [val_main_v55_apply]
  unfold dot
  refine Finset.sum_congr rfl fun k _ => ?_
  rw [val_main_v54_apply]
  have hl : lidx_main_v55 (ix2 r j) k = ix2 r k := by idx_eq
  have hr : idx_main_v54 (ridx_main_v55 (ix2 r j) k) = ix2 j k := by idx_eq
  rw [hl, hr]
  rfl

/-- `h · W9ᵀ`. -/
theorem v57_at (x1 : A S8192x256) (x9 : A S256x256) (r : Fin 8192) (j : Fin 256) :
    val_main_v57 (F := Ideal) x1 x9 (ix2 r j) = dot (row x1 r) (row x9 j) := by
  rw [val_main_v57_apply]
  unfold dot
  refine Finset.sum_congr rfl fun k _ => ?_
  rw [val_main_v56_apply]
  have hl : lidx_main_v57 (ix2 r j) k = ix2 r k := by idx_eq
  have hr : idx_main_v56 (ridx_main_v57 (ix2 r j) k) = ix2 j k := by idx_eq
  rw [hl, hr]
  rfl

/-! ## The prior -/

/-- The prior mean. -/
theorem v2_at (x1 : A S8192x256) (x10 : A S256x256) (r : Fin 8192) (j : Fin 256) :
    val_main_v2 (F := Ideal) x1 x10 (ix2 r j) = muP (row x1 r) x10 j := by
  rw [val_main_v2_apply, v1_at, val_main_call0_v0_apply, val_main_call0_cst_apply]
  rfl

/-- The softplus of `1.2 · (h · W11ᵀ)`. -/
theorem v7_at (x1 : A S8192x256) (x11 : A S256x256) (r : Fin 8192) (j : Fin 256) :
    val_main_v7 (F := Ideal) x1 x11 (ix2 r j) = softplus (w12 * dot (row x1 r) (row x11 j)) := by
  have h6 : val_main_v6 (F := Ideal) x1 x11 (ix2 r j) = w12 * dot (row x1 r) (row x11 j) := by
    rw [val_main_v6_apply, v4_at, val_main_v5_apply, val_main_cst_apply]
    rfl
  simp only [val_main_v7_apply, val_main_call1_v4_apply, val_main_call1_v6_apply, val_main_call1_v11_apply, val_main_call1_v1_apply,
    val_main_call1_v10_apply, val_main_call1_v9_apply, val_main_call1_v8_apply, val_main_call1_v7_apply, val_main_call1_v3_apply,
    val_main_call1_v0_apply, val_main_call1_v2_apply, val_main_call1_v5_apply, val_main_call1_cst_apply]
  rw [h6]
  exact softplus_ref _

/-- The prior spread. -/
theorem v9_at (x1 : A S8192x256) (x11 : A S256x256) (r : Fin 8192) (j : Fin 256) :
    val_main_v9 (F := Ideal) x1 x11 (ix2 r j) = sigP (row x1 r) x11 j := by
  rw [val_main_v9_apply, v7_at, val_main_v8_apply, val_main_cst_0_apply]
  rfl

/-! ## The threshold state -/

/-- The prior spread times the transposed positive part of `W13`. -/
theorem v19_at (x1 : A S8192x256) (x11 : A S256x256) (x13 : A S16x256) (r : Fin 8192) (d : Fin 16) :
    val_main_v19 (F := Ideal) x1 x11 x13 (ix2 r d) = ∑ j : Fin 256, sigP (row x1 r) x11 j * relu (x13 (ix2 d j)) := by
  rw [val_main_v19_apply]
  refine Finset.sum_congr rfl fun k _ => ?_
  have hl : lidx_main_v19 (ix2 r d) k = ix2 r k := by idx_eq
  have hr : idx_main_v18 (ridx_main_v19 (ix2 r d) k) = ix2 d k := by idx_eq
  rw [val_main_v18_apply, hl, hr, v9_at, val_main_v17_apply, val_main_call2_v0_apply, val_main_call2_cst_apply]
  rfl

/-- The threshold state. -/
theorem v27_at (x0 : A S8192x1024) (x1 : A S8192x256) (x3 : A S8192x16) (x11 : A S256x256) (x12 : A S16x1024) (x13 : A S16x256) (r : Fin 8192) (d : Fin 16) :
    val_main_v27 (F := Ideal) x0 x1 x3 x11 x12 x13 (ix2 r d) = theta (row x0 r) (row x1 r) (row x3 r) x11 x12 x13 d := by
  have h22 : val_main_v22 (F := Ideal) x0 x1 x3 x11 x12 x13 (ix2 r d)
      = wHalf * ((wHalf * row x3 r d + wTenth * dot (row x0 r) (row x12 d))
        - ∑ j : Fin 256, sigP (row x1 r) x11 j * relu (x13 (ix2 d j))) := by
    rw [val_main_v22_apply, val_main_v21_apply, val_main_cst_3_apply, val_main_v20_apply, val_main_v16_apply,
      val_main_v11_apply, val_main_v10_apply, val_main_cst_1_apply, val_main_v15_apply, val_main_v14_apply,
      val_main_cst_2_apply, v13_at, v19_at]
    rfl
  have h23 : val_main_v23 (F := Ideal) x0 x1 x3 x11 x12 x13 (ix2 r d)
      = softplus (wHalf * ((wHalf * row x3 r d + wTenth * dot (row x0 r) (row x12 d))
        - ∑ j : Fin 256, sigP (row x1 r) x11 j * relu (x13 (ix2 d j)))) := by
    simp only [val_main_v23_apply, val_main_call3_v4_apply, val_main_call3_v6_apply, val_main_call3_v11_apply, val_main_call3_v1_apply,
    val_main_call3_v10_apply, val_main_call3_v9_apply, val_main_call3_v8_apply, val_main_call3_v7_apply, val_main_call3_v3_apply,
    val_main_call3_v0_apply, val_main_call3_v2_apply, val_main_call3_v5_apply, val_main_call3_cst_apply]
    rw [h22]
    exact softplus_ref _
  rw [val_main_v27_apply, val_main_v26_apply, val_main_cst_5_apply, val_main_v25_apply, h23, val_main_v24_apply,
    val_main_cst_4_apply]
  rfl

/-! ## The sample -/

/-- The clipped posterior sample before thresholding. -/
theorem v36_at (x0 : A S8192x1024) (x4 : A S8192x256) (x6 : A S256x1024) (x7 : A S256x1024) (r : Fin 8192) (j : Fin 256) :
    val_main_v36 (F := Ideal) x0 x4 x6 x7 (ix2 r j)
      = min w1 (max w0 (relu (dot (row x0 r) (row x6 j)) + row x4 r j * relu (dot (row x0 r) (row x7 j)))) := by
  rw [val_main_v36_apply, val_main_call6_v4_apply, val_main_call6_v3_apply, val_main_cst_7_apply, val_main_call6_v2_apply,
    val_main_call6_v1_apply, val_main_call6_v0_apply, val_main_cst_6_apply, val_main_v35_apply, val_main_v30_apply, v29_at,
    val_main_call4_v0_apply, val_main_call4_cst_apply, val_main_v34_apply, val_main_v33_apply, v32_at,
    val_main_call5_v0_apply, val_main_call5_cst_apply]
  rfl

/-- The threshold state times the transposed positive part of `W14`. -/
theorem v39_at (x0 : A S8192x1024) (x1 : A S8192x256) (x3 : A S8192x16) (x11 : A S256x256) (x12 : A S16x1024) (x13 : A S16x256) (x14 : A S256x16) (r : Fin 8192) (j : Fin 256) :
    val_main_v39 (F := Ideal) x0 x1 x3 x11 x12 x13 x14 (ix2 r j)
      = ∑ d : Fin 16, theta (row x0 r) (row x1 r) (row x3 r) x11 x12 x13 d * relu (x14 (ix2 j d)) := by
  rw [val_main_v39_apply]
  refine Finset.sum_congr rfl fun k _ => ?_
  have hl : lidx_main_v39 (ix2 r j) k = ix2 r k := by idx_eq
  have hr : idx_main_v38 (ridx_main_v39 (ix2 r j) k) = ix2 j k := by idx_eq
  rw [val_main_v38_apply, hl, hr, v27_at, val_main_v37_apply, val_main_call7_v0_apply, val_main_call7_cst_apply]
  rfl

/-- The sample. -/
theorem v43_at (x0 : A S8192x1024) (x1 : A S8192x256) (x3 : A S8192x16) (x4 : A S8192x256) (x6 : A S256x1024) (x7 : A S256x1024) (x11 : A S256x256) (x12 : A S16x1024) (x13 : A S16x256) (x14 : A S256x16) (r : Fin 8192) (j : Fin 256) :
    val_main_v43 (F := Ideal) x0 x1 x3 x4 x6 x7 x11 x12 x13 x14 (ix2 r j) = zq (row x0 r) (row x1 r) (row x3 r) (row x4 r) x6 x7 x11 x12 x13 x14 j := by
  rw [val_main_v43_apply, val_main_v42_apply, v36_at, val_main_v41_apply, val_main_v40_apply, val_main_cst_8_apply, v39_at,
    val_main_call8_v0_apply, val_main_call8_cst_apply]
  rfl

/-! ## The reconstruction -/

/-- The sample times `W15ᵀ`. -/
theorem v45_at (x0 : A S8192x1024) (x1 : A S8192x256) (x3 : A S8192x16) (x4 : A S8192x256) (x6 : A S256x1024) (x7 : A S256x1024) (x11 : A S256x256) (x12 : A S16x1024) (x13 : A S16x256) (x14 : A S256x16) (x15 : A S256x256) (r : Fin 8192) (j : Fin 256) :
    val_main_v45 (F := Ideal) x0 x1 x3 x4 x6 x7 x11 x12 x13 x14 x15 (ix2 r j)
      = ∑ k : Fin 256, zq (row x0 r) (row x1 r) (row x3 r) (row x4 r) x6 x7 x11 x12 x13 x14 k * x15 (ix2 j k) := by
  rw [val_main_v45_apply]
  refine Finset.sum_congr rfl fun k _ => ?_
  have hl : lidx_main_v45 (ix2 r j) k = ix2 r k := by idx_eq
  have hr : idx_main_v44 (ridx_main_v45 (ix2 r j) k) = ix2 j k := by idx_eq
  rw [val_main_v44_apply, hl, hr, v43_at]

/-- That, times `W16ᵀ`. -/
theorem v47_at (x0 : A S8192x1024) (x1 : A S8192x256) (x3 : A S8192x16) (x4 : A S8192x256) (x6 : A S256x1024) (x7 : A S256x1024) (x11 : A S256x256) (x12 : A S16x1024) (x13 : A S16x256) (x14 : A S256x16) (x15 : A S256x256) (x16 : A S1024x256) (r : Fin 8192) (c : Fin 1024) :
    val_main_v47 (F := Ideal) x0 x1 x3 x4 x6 x7 x11 x12 x13 x14 x15 x16 (ix2 r c)
      = ∑ j : Fin 256, (∑ k : Fin 256, zq (row x0 r) (row x1 r) (row x3 r) (row x4 r) x6 x7 x11 x12 x13 x14 k * x15 (ix2 j k)) * x16 (ix2 c j) := by
  rw [val_main_v47_apply]
  refine Finset.sum_congr rfl fun k _ => ?_
  have hl : lidx_main_v47 (ix2 r c) k = ix2 r k := by idx_eq
  have hr : idx_main_v46 (ridx_main_v47 (ix2 r c) k) = ix2 c k := by idx_eq
  rw [val_main_v46_apply, hl, hr, v45_at]

/-- The reconstruction: the program spells the logistic function `1 / (1 + exp (-x))`. -/
theorem v53_at (x0 : A S8192x1024) (x1 : A S8192x256) (x3 : A S8192x16) (x4 : A S8192x256) (x6 : A S256x1024) (x7 : A S256x1024) (x11 : A S256x256) (x12 : A S16x1024) (x13 : A S16x256) (x14 : A S256x16) (x15 : A S256x256) (x16 : A S1024x256) (r : Fin 8192) (c : Fin 1024) :
    val_main_v53 (F := Ideal) x0 x1 x3 x4 x6 x7 x11 x12 x13 x14 x15 x16 (ix2 r c)
      = ihat (row x0 r) (row x1 r) (row x3 r) (row x4 r) x6 x7 x11 x12 x13 x14 x15 x16 c := by
  rw [val_main_v53_apply, val_main_v52_apply, val_main_cst_10_apply, val_main_v51_apply, val_main_v50_apply,
    val_main_cst_9_apply, val_main_v49_apply, val_main_v48_apply, v47_at]
  exact div_one_add_exp_neg _

/-! ## The next state and the prior sample -/

/-- The next state. -/
theorem v59_at (x1 : A S8192x256) (x2 : A S8192x256) (x8 : A S256x256) (x9 : A S256x256) (r : Fin 8192) (j : Fin 256) :
    val_main_v59 (F := Ideal) x1 x2 x8 x9 (ix2 r j) = hnew (row x1 r) (row x2 r) x8 x9 j := by
  rw [val_main_v59_apply, val_main_v58_apply, v55_at, v57_at, val_main_call9_v0_apply, val_main_call9_cst_apply]
  rfl

/-- The prior sample. -/
theorem v61_at (x1 : A S8192x256) (x5 : A S8192x256) (x10 : A S256x256) (x11 : A S256x256) (r : Fin 8192) (j : Fin 256) :
    val_main_v61 (F := Ideal) x1 x5 x10 x11 (ix2 r j) = zhat (row x1 r) (row x5 r) x10 x11 j := by
  rw [val_main_v61_apply, v2_at, val_main_v60_apply, v9_at]
  rfl

/-! ## The four arrays -/

theorem ref_ihat (x0 : A S8192x1024) (x1 : A S8192x256) (x3 : A S8192x16) (x4 : A S8192x256) (x6 : A S256x1024) (x7 : A S256x1024) (x11 : A S256x256) (x12 : A S16x1024) (x13 : A S16x256) (x14 : A S256x16) (x15 : A S256x256) (x16 : A S1024x256) :
    val_main_v53 (F := Ideal) x0 x1 x3 x4 x6 x7 x11 x12 x13 x14 x15 x16
      = IhatArr (n := 8192) x0 x1 x3 x4 x6 x7 x11 x12 x13 x14 x15 x16 := by
  funext i
  obtain ⟨r, q, rfl⟩ : ∃ (r : Fin 8192) (q : Fin 1024), i = ix2 r q := ⟨i 0, i 1, eq_ix2 i⟩
  rw [v53_at]
  rfl

theorem ref_z (x0 : A S8192x1024) (x1 : A S8192x256) (x3 : A S8192x16) (x4 : A S8192x256) (x6 : A S256x1024) (x7 : A S256x1024) (x11 : A S256x256) (x12 : A S16x1024) (x13 : A S16x256) (x14 : A S256x16) :
    val_main_v43 (F := Ideal) x0 x1 x3 x4 x6 x7 x11 x12 x13 x14
      = ZArr (n := 8192) x0 x1 x3 x4 x6 x7 x11 x12 x13 x14 := by
  funext i
  obtain ⟨r, q, rfl⟩ : ∃ (r : Fin 8192) (q : Fin 256), i = ix2 r q := ⟨i 0, i 1, eq_ix2 i⟩
  rw [v43_at]
  rfl

theorem ref_h (x1 : A S8192x256) (x2 : A S8192x256) (x8 : A S256x256) (x9 : A S256x256) :
    val_main_v59 (F := Ideal) x1 x2 x8 x9 = HArr (n := 8192) x1 x2 x8 x9 := by
  funext i
  obtain ⟨r, q, rfl⟩ : ∃ (r : Fin 8192) (q : Fin 256), i = ix2 r q := ⟨i 0, i 1, eq_ix2 i⟩
  rw [v59_at]
  rfl

theorem ref_zhat (x1 : A S8192x256) (x5 : A S8192x256) (x10 : A S256x256) (x11 : A S256x256) :
    val_main_v61 (F := Ideal) x1 x5 x10 x11 = ZhatArr (n := 8192) x1 x5 x10 x11 := by
  funext i
  obtain ⟨r, q, rfl⟩ : ∃ (r : Fin 8192) (q : Fin 256), i = ix2 r q := ⟨i 0, i 1, eq_ix2 i⟩
  rw [v61_at]
  rfl

/-! ## The three scalar summaries

The reference's last operations are the summaries' own: a difference, a square, the sum of all entries from the word of
zero, and the quotient by the word of the number of entries. -/

theorem ref_spatial (x0 : A S8192x1024) (x1 : A S8192x256) (x3 : A S8192x16) (x4 : A S8192x256) (x6 : A S256x1024) (x7 : A S256x1024) (x11 : A S256x256) (x12 : A S16x1024) (x13 : A S16x256) (x14 : A S256x16) (x15 : A S256x256) (x16 : A S1024x256) :
    val_main_v65 (F := Ideal) x0 x1 x3 x4 x6 x7 x11 x12 x13 x14 x15 x16
      = Cert.Losses.mseWide x0 (val_main_v53 (F := Ideal) x0 x1 x3 x4 x6 x7 x11 x12 x13 x14 x15 x16) := by
  unfold val_main_v65 val_main_v64 val_main_v63 val_main_v62 val_main_cst_11 val_main_cst_12 Cert.Losses.mseWide
  generalize val_main_v53 (F := Ideal) x0 x1 x3 x4 x6 x7 x11 x12 x13 x14 x15 x16 = V
  rfl

theorem ref_temporal (x0 : A S8192x1024) (x1 : A S8192x256) (x3 : A S8192x16) (x4 : A S8192x256) (x5 : A S8192x256) (x6 : A S256x1024) (x7 : A S256x1024) (x10 : A S256x256) (x11 : A S256x256) (x12 : A S16x1024) (x13 : A S16x256) (x14 : A S256x16) :
    val_main_v69 (F := Ideal) x0 x1 x3 x4 x5 x6 x7 x10 x11 x12 x13 x14
      = Cert.Losses.mseNarrow (val_main_v43 (F := Ideal) x0 x1 x3 x4 x6 x7 x11 x12 x13 x14)
          (val_main_v61 (F := Ideal) x1 x5 x10 x11) := by
  unfold val_main_v69 val_main_v68 val_main_v67 val_main_v66 val_main_cst_13 val_main_cst_14 Cert.Losses.mseNarrow
  generalize val_main_v43 (F := Ideal) x0 x1 x3 x4 x6 x7 x11 x12 x13 x14 = Z
  generalize val_main_v61 (F := Ideal) x1 x5 x10 x11 = Zh
  rfl

theorem ref_energy (x0 : A S8192x1024) (x1 : A S8192x256) (x3 : A S8192x16) (x4 : A S8192x256) (x6 : A S256x1024) (x7 : A S256x1024) (x11 : A S256x256) (x12 : A S16x1024) (x13 : A S16x256) (x14 : A S256x16) :
    val_main_v72 (F := Ideal) x0 x1 x3 x4 x6 x7 x11 x12 x13 x14
      = Cert.Losses.meanAbs (val_main_v43 (F := Ideal) x0 x1 x3 x4 x6 x7 x11 x12 x13 x14) := by
  unfold val_main_v72 val_main_v71 val_main_v70 val_main_cst_15 val_main_cst_16 Cert.Losses.meanAbs
  generalize val_main_v43 (F := Ideal) x0 x1 x3 x4 x6 x7 x11 x12 x13 x14 = Z
  rfl

end Cert.RefValue

end
-- ==== Proof.HostSide.lean ====
/-
  The host operations around the one region of the program.

  Before the region every weight matrix is transposed (the region reads `Wᵀ`, so that "a row times `Wᵀ`" is a plain
  matrix product), two of them after `max · 0`; the change of float format that follows each transpose is the identity on
  extended reals. Each statement reads the array the region finds at an index `(k, j)` as the launched matrix at
  `(j, k)`.

  After the region three scalar summaries are computed from the launched observation and three of the region's result
  arrays: they are the functions `mseWide`, `mseNarrow`, `meanAbs` of those arrays.
-/
import proofs.«138823_j77910706749637_1_alg».proof.Proof.Spec
import proofs.«138823_j77910706749637_1_alg».proof.Proof.Tail
import proofs.«138823_j77910706749637_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.HostSide

open Idealize.ShloMosaic Idealize.ShloMosaic.TcCoe Idealize.ShloMosaic.ValueIdx Idealize.ShloMosaic.StableHlo Idealize.SL.Sem Cert.KernelIdeal Cert.KernelIdeal.Gen

variable (m : (ℓ : Loc nD τ sig) → Buf (Elt Ideal) ℓ) (c : Dev nD)

/-- The array the region reads as `main_v1` is the transpose of the launched `main_arg6` (the format change that follows
    the transpose is the identity on extended reals). -/
theorem pre_v1 (k : Fin 1024) (j : Fin 256) : V (F := Ideal) m c main_v1 (ix2 k j) = m ((c : Thread nD τ).loc main_arg6) (ix2 j k) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact transpose_ix2_apply (m ((c : Thread nD τ).loc main_arg6)) transposes_S256x1024_S1024x256_1_0 k j

/-- The array the region reads as `main_v3` is the transpose of the launched `main_arg7` (the format change that follows
    the transpose is the identity on extended reals). -/
theorem pre_v3 (k : Fin 1024) (j : Fin 256) : V (F := Ideal) m c main_v3 (ix2 k j) = m ((c : Thread nD τ).loc main_arg7) (ix2 j k) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact transpose_ix2_apply (m ((c : Thread nD τ).loc main_arg7)) transposes_S256x1024_S1024x256_1_0 k j

/-- The array the region reads as `main_v5` is the transpose of the launched `main_arg8` (the format change that follows
    the transpose is the identity on extended reals). -/
theorem pre_v5 (k : Fin 256) (j : Fin 256) : V (F := Ideal) m c main_v5 (ix2 k j) = m ((c : Thread nD τ).loc main_arg8) (ix2 j k) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact transpose_ix2_apply (m ((c : Thread nD τ).loc main_arg8)) transposes_S256x256_S256x256_1_0 k j

/-- The array the region reads as `main_v7` is the transpose of the launched `main_arg9` (the format change that follows
    the transpose is the identity on extended reals). -/
theorem pre_v7 (k : Fin 256) (j : Fin 256) : V (F := Ideal) m c main_v7 (ix2 k j) = m ((c : Thread nD τ).loc main_arg9) (ix2 j k) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact transpose_ix2_apply (m ((c : Thread nD τ).loc main_arg9)) transposes_S256x256_S256x256_1_0 k j

/-- The array the region reads as `main_v9` is the transpose of the launched `main_arg10` (the format change that follows
    the transpose is the identity on extended reals). -/
theorem pre_v9 (k : Fin 256) (j : Fin 256) : V (F := Ideal) m c main_v9 (ix2 k j) = m ((c : Thread nD τ).loc main_arg10) (ix2 j k) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact transpose_ix2_apply (m ((c : Thread nD τ).loc main_arg10)) transposes_S256x256_S256x256_1_0 k j

/-- The array the region reads as `main_v11` is the transpose of the launched `main_arg11` (the format change that follows
    the transpose is the identity on extended reals). -/
theorem pre_v11 (k : Fin 256) (j : Fin 256) : V (F := Ideal) m c main_v11 (ix2 k j) = m ((c : Thread nD τ).loc main_arg11) (ix2 j k) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact transpose_ix2_apply (m ((c : Thread nD τ).loc main_arg11)) transposes_S256x256_S256x256_1_0 k j

/-- The array the region reads as `main_v13` is the transpose of the launched `main_arg12` (the format change that follows
    the transpose is the identity on extended reals). -/
theorem pre_v13 (k : Fin 1024) (d : Fin 16) : V (F := Ideal) m c main_v13 (ix2 k d) = m ((c : Thread nD τ).loc main_arg12) (ix2 d k) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact transpose_ix2_apply (m ((c : Thread nD τ).loc main_arg12)) transposes_S16x1024_S1024x16_1_0 k d

/-- The array the region reads as `main_v16` is the transpose of `max · 0` of the launched `main_arg13`: the zero
    is a scalar constant broadcast to the matrix's shape, which reads the constant's word at every index. -/
theorem pre_v16 (j : Fin 256) (d : Fin 16) : V (F := Ideal) m c main_v16 (ix2 j d) = Cert.Step.relu (m ((c : Thread nD τ).loc main_arg13) (ix2 d j)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  refine (transpose_ix2_apply (maximumf (F := Ideal) (m ((c : Thread nD τ).loc main_arg13)) (broadcastInDim S16x256 ![] bcast_S_S16x256 (constant (F := Ideal) S_ .f32 0x00000000#32))) transposes_S16x256_S256x16_1_0 j d).trans ?_
  rfl

/-- The array the region reads as `main_v19` is the transpose of `max · 0` of the launched `main_arg14`. -/
theorem pre_v19 (d : Fin 16) (j : Fin 256) : V (F := Ideal) m c main_v19 (ix2 d j) = Cert.Step.relu (m ((c : Thread nD τ).loc main_arg14) (ix2 j d)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  refine (transpose_ix2_apply (maximumf (F := Ideal) (m ((c : Thread nD τ).loc main_arg14)) (broadcastInDim S256x16 ![] bcast_S_S256x16 (constant (F := Ideal) S_ .f32 0x00000000#32))) transposes_S256x16_S16x256_1_0 d j).trans ?_
  rfl

/-- The array the region reads as `main_v21` is the transpose of the launched `main_arg15` (the format change that follows
    the transpose is the identity on extended reals). -/
theorem pre_v21 (k : Fin 256) (j : Fin 256) : V (F := Ideal) m c main_v21 (ix2 k j) = m ((c : Thread nD τ).loc main_arg15) (ix2 j k) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact transpose_ix2_apply (m ((c : Thread nD τ).loc main_arg15)) transposes_S256x256_S256x256_1_0 k j

/-- The array the region reads as `main_v23` is the transpose of the launched `main_arg16` (the format change that follows
    the transpose is the identity on extended reals). -/
theorem pre_v23 (j : Fin 256) (q : Fin 1024) : V (F := Ideal) m c main_v23 (ix2 j q) = m ((c : Thread nD τ).loc main_arg16) (ix2 q j) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact transpose_ix2_apply (m ((c : Thread nD τ).loc main_arg16)) transposes_S1024x256_S256x1024_1_0 j q

/-- The first summary: after the region, `main_v28` holds the mean squared difference of the launched observation
    (window 0's array, which the region only reads) and the region's first result array (window 17's). The operations
    after the region are exactly those of `mseWide`, applied to the two arrays as the region leaves them. -/
theorem tail_spatial (A0 : Buf (Elt Ideal) ((c.tc : Thread nD τ).loc main_arg0)) (O17 : Buf (Elt Ideal) ((c.tc : Thread nD τ).loc main_v24_0))
    (h0 : (dats m 0 c).arrAt 0 cfg0.N = A0) (h17 : (dats m 0 c).arrAt 17 cfg0.N = O17) :
    Pipeline.afterTail₀ cfgs (dats m) 0 (V0 m) [hostOps1] c main_v28 = Cert.Losses.mseWide A0 O17 := by
  have e0 : Pipeline.withArrays (cfgs 0).spec c (V0 m c) (fun w => (dats m 0 c).arrAt w (cfgs 0).N) (Proc.devRef .tc main_arg0) = A0 :=
    (Pipeline.withArrays_arr spec0 launch0.win.arr_inj c _ _ 0).trans h0
  have e17 : Pipeline.withArrays (cfgs 0).spec c (V0 m c) (fun w => (dats m 0 c).arrAt w (cfgs 0).N) (Proc.devRef .tc main_v24_0) = O17 :=
    (Pipeline.withArrays_arr spec0 launch0.win.arr_inj c _ _ 17).trans h17
  unfold Pipeline.afterTail₀
  show StableHlo.after hostOps1 _ (Proc.devRef .tc main_v28) = _
  after_results
  rw [e0, e17]
  rfl

/-- The second summary: `main_v32` holds the mean squared difference of the region's second and fourth result arrays
    (windows 18 and 20). -/
theorem tail_temporal (O18 : Buf (Elt Ideal) ((c.tc : Thread nD τ).loc main_v24_1)) (O20 : Buf (Elt Ideal) ((c.tc : Thread nD τ).loc main_v24_3))
    (h18 : (dats m 0 c).arrAt 18 cfg0.N = O18) (h20 : (dats m 0 c).arrAt 20 cfg0.N = O20) :
    Pipeline.afterTail₀ cfgs (dats m) 0 (V0 m) [hostOps1] c main_v32 = Cert.Losses.mseNarrow O18 O20 := by
  have e18 : Pipeline.withArrays (cfgs 0).spec c (V0 m c) (fun w => (dats m 0 c).arrAt w (cfgs 0).N) (Proc.devRef .tc main_v24_1) = O18 :=
    (Pipeline.withArrays_arr spec0 launch0.win.arr_inj c _ _ 18).trans h18
  have e20 : Pipeline.withArrays (cfgs 0).spec c (V0 m c) (fun w => (dats m 0 c).arrAt w (cfgs 0).N) (Proc.devRef .tc main_v24_3) = O20 :=
    (Pipeline.withArrays_arr spec0 launch0.win.arr_inj c _ _ 20).trans h20
  unfold Pipeline.afterTail₀
  show StableHlo.after hostOps1 _ (Proc.devRef .tc main_v32) = _
  after_results
  rw [e18, e20]
  rfl

/-- The third summary: `main_v35` holds the mean absolute value of the region's second result array (window 18). -/
theorem tail_energy (O18 : Buf (Elt Ideal) ((c.tc : Thread nD τ).loc main_v24_1))
    (h18 : (dats m 0 c).arrAt 18 cfg0.N = O18) :
    Pipeline.afterTail₀ cfgs (dats m) 0 (V0 m) [hostOps1] c main_v35 = Cert.Losses.meanAbs O18 := by
  have e18 : Pipeline.withArrays (cfgs 0).spec c (V0 m c) (fun w => (dats m 0 c).arrAt w (cfgs 0).N) (Proc.devRef .tc main_v24_1) = O18 :=
    (Pipeline.withArrays_arr spec0 launch0.win.arr_inj c _ _ 18).trans h18
  unfold Pipeline.afterTail₀
  show StableHlo.after hostOps1 _ (Proc.devRef .tc main_v35) = _
  after_results
  rw [e18]
  rfl

end Cert.HostSide

end
-- ==== Proof.BlockProduct.lean ====
/-
  A matrix product into a zero accumulator, read at one entry: for a block of `1024` rows `l` (1024 × K) and a matrix
  `r` (K × N), entry `(p, q)` of the product is `∑ k, l (p, k) * r (k, q)` — the sum over the one contracted axis,
  re-indexed from the contraction's own index type to `Fin K`. One statement per shape of product the kernel's body
  makes (six shapes); the four coordinate facts say which coordinate of each operand index is the output's row, the
  output's column and the summation variable.
-/
import proofs.«138823_j77910706749637_1_alg».proof.Proof.Gen.KernelIdeal
import Idealize.ShloMosaic.PureOps.Ideal.Laws
import Idealize.ShloMosaic.Lib.ValueIdx

noncomputable section

namespace Cert.BlockProduct

open Idealize.ShloMosaic Idealize.ShloMosaic.ValueIdx Cert.KernelIdeal

/-! ## 1024 × 256 times 256 × 256 -/

theorem rows256x256_lhs0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem rows256x256_lhs1 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem rows256x256_rhs0 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem rows256x256_rhs1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Entry `(p, q)` of the product of a 1024 × 256 block with a 256 × 256 matrix. -/
theorem rows256x256 {φ₁ φ₂ : FTy} (l : FVec Ideal S1024x256 φ₁) (r : FVec Ideal S256x256 φ₂) (p : Fin 1024) (q : Fin 256) :
    matmul dot_S1024x256_S256x256_S1024x256_1_0_0_1_n_n none l r (constant (F := Ideal) S1024x256 .f32 0x00000000#32) (ix2 p q)
      = ∑ k : Fin 256, l (ix2 p k) * r (ix2 k q) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact rows256x256_lhs0 _ _
    | ⟨1, _⟩ => exact (rows256x256_lhs1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (rows256x256_rhs0 _ _).trans hk
    | ⟨1, _⟩ => exact rows256x256_rhs1 _ _)
  rw [el, er]

/-! ## 1024 × 1024 times 1024 × 16 -/

theorem rows1024x16_lhs0 (i : S1024x16.Idx) (q : dot_S1024x1024_S1024x16_S1024x16_1_0_0_1_n_n.contr.Idx) : (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem rows1024x16_lhs1 (i : S1024x16.Idx) (q : dot_S1024x1024_S1024x16_S1024x16_1_0_0_1_n_n.contr.Idx) : (dot_S1024x1024_S1024x16_S1024x16_1_0_0_1_n_n.lhsIdx i q 1).val = (q ⟨0, by decide⟩).val :=
  dot_S1024x1024_S1024x16_S1024x16_1_0_0_1_n_n.lhsIdx_val_of_single rfl i q
theorem rows1024x16_rhs0 (i : S1024x16.Idx) (q : dot_S1024x1024_S1024x16_S1024x16_1_0_0_1_n_n.contr.Idx) : (dot_S1024x1024_S1024x16_S1024x16_1_0_0_1_n_n.rhsIdx i q 0).val = (q ⟨0, by decide⟩).val :=
  dot_S1024x1024_S1024x16_S1024x16_1_0_0_1_n_n.rhsIdx_val_of_single rfl i q
theorem rows1024x16_rhs1 (i : S1024x16.Idx) (q : dot_S1024x1024_S1024x16_S1024x16_1_0_0_1_n_n.contr.Idx) : (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

/-- Entry `(p, q)` of the product of a 1024 × 1024 block with a 1024 × 16 matrix. -/
theorem rows1024x16 {φ₁ φ₂ : FTy} (l : FVec Ideal S1024x1024 φ₁) (r : FVec Ideal S1024x16 φ₂) (p : Fin 1024) (q : Fin 16) :
    matmul dot_S1024x1024_S1024x16_S1024x16_1_0_0_1_n_n none l r (constant (F := Ideal) S1024x16 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x16_S1024x16_1_0_0_1_n_n 1024 rfl rfl).symm]
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 p q) ((contrEquiv1 dot_S1024x1024_S1024x16_S1024x16_1_0_0_1_n_n 1024 rfl rfl).symm k) = ix2 p k := funext fun a => Fin.ext (by
    match a with
    | ⟨0, _⟩ => exact rows1024x16_lhs0 _ _
    | ⟨1, _⟩ => exact (rows1024x16_lhs1 _ _).trans hk)
  have er : dot_S1024x1024_S1024x16_S1024x16_1_0_0_1_n_n.rhsIdx (ix2 p q) ((contrEquiv1 dot_S1024x1024_S1024x16_S1024x16_1_0_0_1_n_n 1024 rfl rfl).symm k) = ix2 k q := funext fun a => Fin.ext (by
    match a with
    | ⟨0, _⟩ => exact (rows1024x16_rhs0 _ _).trans hk
    | ⟨1, _⟩ => exact rows1024x16_rhs1 _ _)
  rw [el, er]

/-! ## 1024 × 256 times 256 × 16 -/

theorem rows256x16_lhs0 (i : S1024x16.Idx) (q : dot_S1024x256_S256x16_S1024x16_1_0_0_1_n_n.contr.Idx) : (dot_S1024x256_S256x16_S1024x16_1_0_0_1_n_n.lhsIdx i q 0).val = (i 0).val := by
  unfold DotDims.lhsIdx
  rw [dif_neg (show ¬(0 : Fin S1024x256.rank) ∈ dot_S1024x256_S256x16_S1024x16_1_0_0_1_n_n.lhsBatch by decide), dif_pos (show (0 : Fin S1024x256.rank) ∈ dot_S1024x256_S256x16_S1024x16_1_0_0_1_n_n.lhsNonContracting by decide)]
  rfl
theorem rows256x16_lhs1 (i : S1024x16.Idx) (q : dot_S1024x256_S256x16_S1024x16_1_0_0_1_n_n.contr.Idx) : (dot_S1024x256_S256x16_S1024x16_1_0_0_1_n_n.lhsIdx i q 1).val = (q ⟨0, by decide⟩).val :=
  dot_S1024x256_S256x16_S1024x16_1_0_0_1_n_n.lhsIdx_val_of_single rfl i q
theorem rows256x16_rhs0 (i : S1024x16.Idx) (q : dot_S1024x256_S256x16_S1024x16_1_0_0_1_n_n.contr.Idx) : (dot_S1024x256_S256x16_S1024x16_1_0_0_1_n_n.rhsIdx i q 0).val = (q ⟨0, by decide⟩).val :=
  dot_S1024x256_S256x16_S1024x16_1_0_0_1_n_n.rhsIdx_val_of_single rfl i q
theorem rows256x16_rhs1 (i : S1024x16.Idx) (q : dot_S1024x256_S256x16_S1024x16_1_0_0_1_n_n.contr.Idx) : (dot_S1024x256_S256x16_S1024x16_1_0_0_1_n_n.rhsIdx i q 1).val = (i 1).val := by
  unfold DotDims.rhsIdx
  rw [dif_neg (show ¬(1 : Fin S256x16.rank) ∈ dot_S1024x256_S256x16_S1024x16_1_0_0_1_n_n.rhsBatch by decide), dif_pos (show (1 : Fin S256x16.rank) ∈ dot_S1024x256_S256x16_S1024x16_1_0_0_1_n_n.rhsNonContracting by decide)]
  rfl

/-- Entry `(p, q)` of the product of a 1024 × 256 block with a 256 × 16 matrix. -/
theorem rows256x16 {φ₁ φ₂ : FTy} (l : FVec Ideal S1024x256 φ₁) (r : FVec Ideal S256x16 φ₂) (p : Fin 1024) (q : Fin 16) :
    matmul dot_S1024x256_S256x16_S1024x16_1_0_0_1_n_n none l r (constant (F := Ideal) S1024x16 .f32 0x00000000#32) (ix2 p q)
      = ∑ k : Fin 256, l (ix2 p k) * r (ix2 k q) := by
  simp only [matmul]
  rw [Ideal.matmul_constant_zero_apply, ← Equiv.sum_comp (contrEquiv1 dot_S1024x256_S256x16_S1024x16_1_0_0_1_n_n 256 rfl rfl).symm]
  refine Finset.sum_congr rfl fun k _ => ?_
  have hk := contrEquiv1_symm_val dot_S1024x256_S256x16_S1024x16_1_0_0_1_n_n 256 rfl rfl k
  have el : dot_S1024x256_S256x16_S1024x16_1_0_0_1_n_n.lhsIdx (ix2 p q) ((contrEquiv1 dot_S1024x256_S256x16_S1024x16_1_0_0_1_n_n 256 rfl rfl).symm k) = ix2 p k := funext fun a => Fin.ext (by
    match a with
    | ⟨0, _⟩ => exact rows256x16_lhs0 _ _
    | ⟨1, _⟩ => exact (rows256x16_lhs1 _ _).trans hk)
  have er : dot_S1024x256_S256x16_S1024x16_1_0_0_1_n_n.rhsIdx (ix2 p q) ((contrEquiv1 dot_S1024x256_S256x16_S1024x16_1_0_0_1_n_n 256 rfl rfl).symm k) = ix2 k q := funext fun a => Fin.ext (by
    match a with
    | ⟨0, _⟩ => exact (rows256x16_rhs0 _ _).trans hk
    | ⟨1, _⟩ => exact rows256x16_rhs1 _ _)
  rw [el, er]

/-! ## 1024 × 1024 times 1024 × 256 -/

theorem rows1024x256_lhs0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem rows1024x256_lhs1 (i : S1024x256.Idx) (q : dot_S1024x1024_S1024x256_S1024x256_1_0_0_1_n_n.contr.Idx) : (dot_S1024x1024_S1024x256_S1024x256_1_0_0_1_n_n.lhsIdx i q 1).val = (q ⟨0, by decide⟩).val :=
  dot_S1024x1024_S1024x256_S1024x256_1_0_0_1_n_n.lhsIdx_val_of_single rfl i q
theorem rows1024x256_rhs0 (i : S1024x256.Idx) (q : dot_S1024x1024_S1024x256_S1024x256_1_0_0_1_n_n.contr.Idx) : (dot_S1024x1024_S1024x256_S1024x256_1_0_0_1_n_n.rhsIdx i q 0).val = (q ⟨0, by decide⟩).val :=
  dot_S1024x1024_S1024x256_S1024x256_1_0_0_1_n_n.rhsIdx_val_of_single rfl i q
theorem rows1024x256_rhs1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- Entry `(p, q)` of the product of a 1024 × 1024 block with a 1024 × 256 matrix. -/
theorem rows1024x256 {φ₁ φ₂ : FTy} (l : FVec Ideal S1024x1024 φ₁) (r : FVec Ideal S1024x256 φ₂) (p : Fin 1024) (q : Fin 256) :
    matmul dot_S1024x1024_S1024x256_S1024x256_1_0_0_1_n_n none l r (constant (F := Ideal) S1024x256 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q) ((contrEquiv1 dot_S1024x1024_S1024x256_S1024x256_1_0_0_1_n_n 1024 rfl rfl).symm k) = ix2 p k := funext fun a => Fin.ext (by
    match a with
    | ⟨0, _⟩ => exact rows1024x256_lhs0 _ _
    | ⟨1, _⟩ => exact (rows1024x256_lhs1 _ _).trans hk)
  have er : dot_S1024x1024_S1024x256_S1024x256_1_0_0_1_n_n.rhsIdx (ix2 p q) ((contrEquiv1 dot_S1024x1024_S1024x256_S1024x256_1_0_0_1_n_n 1024 rfl rfl).symm k) = ix2 k q := funext fun a => Fin.ext (by
    match a with
    | ⟨0, _⟩ => exact (rows1024x256_rhs0 _ _).trans hk
    | ⟨1, _⟩ => exact rows1024x256_rhs1 _ _)
  rw [el, er]

/-! ## 1024 × 16 times 16 × 256 -/

theorem rows16x256_lhs0 (i : S1024x256.Idx) (q : dot_S1024x16_S16x256_S1024x256_1_0_0_1_n_n.contr.Idx) : (dot_S1024x16_S16x256_S1024x256_1_0_0_1_n_n.lhsIdx i q 0).val = (i 0).val := by
  unfold DotDims.lhsIdx
  rw [dif_neg (show ¬(0 : Fin S1024x16.rank) ∈ dot_S1024x16_S16x256_S1024x256_1_0_0_1_n_n.lhsBatch by decide), dif_pos (show (0 : Fin S1024x16.rank) ∈ dot_S1024x16_S16x256_S1024x256_1_0_0_1_n_n.lhsNonContracting by decide)]
  rfl
theorem rows16x256_lhs1 (i : S1024x256.Idx) (q : dot_S1024x16_S16x256_S1024x256_1_0_0_1_n_n.contr.Idx) : (dot_S1024x16_S16x256_S1024x256_1_0_0_1_n_n.lhsIdx i q 1).val = (q ⟨0, by decide⟩).val :=
  dot_S1024x16_S16x256_S1024x256_1_0_0_1_n_n.lhsIdx_val_of_single rfl i q
theorem rows16x256_rhs0 (i : S1024x256.Idx) (q : dot_S1024x16_S16x256_S1024x256_1_0_0_1_n_n.contr.Idx) : (dot_S1024x16_S16x256_S1024x256_1_0_0_1_n_n.rhsIdx i q 0).val = (q ⟨0, by decide⟩).val :=
  dot_S1024x16_S16x256_S1024x256_1_0_0_1_n_n.rhsIdx_val_of_single rfl i q
theorem rows16x256_rhs1 (i : S1024x256.Idx) (q : dot_S1024x16_S16x256_S1024x256_1_0_0_1_n_n.contr.Idx) : (dot_S1024x16_S16x256_S1024x256_1_0_0_1_n_n.rhsIdx i q 1).val = (i 1).val := by
  unfold DotDims.rhsIdx
  rw [dif_neg (show ¬(1 : Fin S16x256.rank) ∈ dot_S1024x16_S16x256_S1024x256_1_0_0_1_n_n.rhsBatch by decide), dif_pos (show (1 : Fin S16x256.rank) ∈ dot_S1024x16_S16x256_S1024x256_1_0_0_1_n_n.rhsNonContracting by decide)]
  rfl

/-- Entry `(p, q)` of the product of a 1024 × 16 block with a 16 × 256 matrix. -/
theorem rows16x256 {φ₁ φ₂ : FTy} (l : FVec Ideal S1024x16 φ₁) (r : FVec Ideal S16x256 φ₂) (p : Fin 1024) (q : Fin 256) :
    matmul dot_S1024x16_S16x256_S1024x256_1_0_0_1_n_n none l r (constant (F := Ideal) S1024x256 .f32 0x00000000#32) (ix2 p q)
      = ∑ k : Fin 16, l (ix2 p k) * r (ix2 k q) := by
  simp only [matmul]
  rw [Ideal.matmul_constant_zero_apply, ← Equiv.sum_comp (contrEquiv1 dot_S1024x16_S16x256_S1024x256_1_0_0_1_n_n 16 rfl rfl).symm]
  refine Finset.sum_congr rfl fun k _ => ?_
  have hk := contrEquiv1_symm_val dot_S1024x16_S16x256_S1024x256_1_0_0_1_n_n 16 rfl rfl k
  have el : dot_S1024x16_S16x256_S1024x256_1_0_0_1_n_n.lhsIdx (ix2 p q) ((contrEquiv1 dot_S1024x16_S16x256_S1024x256_1_0_0_1_n_n 16 rfl rfl).symm k) = ix2 p k := funext fun a => Fin.ext (by
    match a with
    | ⟨0, _⟩ => exact rows16x256_lhs0 _ _
    | ⟨1, _⟩ => exact (rows16x256_lhs1 _ _).trans hk)
  have er : dot_S1024x16_S16x256_S1024x256_1_0_0_1_n_n.rhsIdx (ix2 p q) ((contrEquiv1 dot_S1024x16_S16x256_S1024x256_1_0_0_1_n_n 16 rfl rfl).symm k) = ix2 k q := funext fun a => Fin.ext (by
    match a with
    | ⟨0, _⟩ => exact (rows16x256_rhs0 _ _).trans hk
    | ⟨1, _⟩ => exact rows16x256_rhs1 _ _)
  rw [el, er]

/-! ## 1024 × 256 times 256 × 1024 -/

theorem rows256x1024_lhs0 (i : S1024x1024.Idx) (q : dot_S1024x256_S256x1024_S1024x1024_1_0_0_1_n_n.contr.Idx) : (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem rows256x1024_lhs1 (i : S1024x1024.Idx) (q : dot_S1024x256_S256x1024_S1024x1024_1_0_0_1_n_n.contr.Idx) : (dot_S1024x256_S256x1024_S1024x1024_1_0_0_1_n_n.lhsIdx i q 1).val = (q ⟨0, by decide⟩).val :=
  dot_S1024x256_S256x1024_S1024x1024_1_0_0_1_n_n.lhsIdx_val_of_single rfl i q
theorem rows256x1024_rhs0 (i : S1024x1024.Idx) (q : dot_S1024x256_S256x1024_S1024x1024_1_0_0_1_n_n.contr.Idx) : (dot_S1024x256_S256x1024_S1024x1024_1_0_0_1_n_n.rhsIdx i q 0).val = (q ⟨0, by decide⟩).val :=
  dot_S1024x256_S256x1024_S1024x1024_1_0_0_1_n_n.rhsIdx_val_of_single rfl i q
theorem rows256x1024_rhs1 (i : S1024x1024.Idx) (q : dot_S1024x256_S256x1024_S1024x1024_1_0_0_1_n_n.contr.Idx) : (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- Entry `(p, q)` of the product of a 1024 × 256 block with a 256 × 1024 matrix. -/
theorem rows256x1024 {φ₁ φ₂ : FTy} (l : FVec Ideal S1024x256 φ₁) (r : FVec Ideal S256x1024 φ₂) (p : Fin 1024) (q : Fin 1024) :
    matmul dot_S1024x256_S256x1024_S1024x1024_1_0_0_1_n_n none l r (constant (F := Ideal) S1024x1024 .f32 0x00000000#32) (ix2 p q)
      = ∑ k : Fin 256, l (ix2 p k) * r (ix2 k q) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q) ((contrEquiv1 dot_S1024x256_S256x1024_S1024x1024_1_0_0_1_n_n 256 rfl rfl).symm k) = ix2 p k := funext fun a => Fin.ext (by
    match a with
    | ⟨0, _⟩ => exact rows256x1024_lhs0 _ _
    | ⟨1, _⟩ => exact (rows256x1024_lhs1 _ _).trans hk)
  have er : dot_S1024x256_S256x1024_S1024x1024_1_0_0_1_n_n.rhsIdx (ix2 p q) ((contrEquiv1 dot_S1024x256_S256x1024_S1024x1024_1_0_0_1_n_n 256 rfl rfl).symm k) = ix2 k q := funext fun a => Fin.ext (by
    match a with
    | ⟨0, _⟩ => exact (rows256x1024_rhs0 _ _).trans hk
    | ⟨1, _⟩ => exact rows256x1024_rhs1 _ _)
  rw [el, er]

end Cert.BlockProduct

end
-- ==== Proof.Body.lean ====
/-
  The kernel body's values, read at one entry of a block of 1024 rows: each named value of the body is the
  specification's row function of the same row of the loaded blocks. A weight block `v` arrives transposed
  (`v (k, j) = W (j, k)`, and for the two positive weights `v (j, d) = relu (W (d, j))`), which is what the hypotheses
  `hW…` say; format changes are the identity on extended reals, a matrix product into a zero accumulator is a sum
  over the contracted axis, and everything else acts entry by entry. The softplus compares a value with itself to
  detect a missing number: over the extended reals the comparison is always false, so its second branch is taken, and
  `0 - a` there is `-a`.
-/
import proofs.«138823_j77910706749637_1_alg».proof.Proof.Gen.KernelIdeal.Skeleton
import proofs.«138823_j77910706749637_1_alg».proof.Proof.Spec
import proofs.«138823_j77910706749637_1_alg».proof.Proof.BlockProduct
import Idealize.ShloMosaic.Lib.Pipeline.Value
import Idealize.ShloMosaic.Lib.ValueIdx

noncomputable section

namespace Cert.BlockValue

open Idealize.ShloMosaic Idealize.ShloMosaic.ValueIdx Cert.KernelIdeal Cert.KernelIdeal.Gen Cert.Step Cert.BlockProduct

variable {s : Shape} {φ : FTy}

theorem exp_apply (a : FVec Ideal s φ) (i : s.Idx) : exp a i = Ideal.exp (a i) := rfl
theorem log1p_apply (a : FVec Ideal s φ) (i : s.Idx) : log1p a i = Ideal.log1p (a i) := rfl
theorem absf_apply (a : FVec Ideal s φ) (i : s.Idx) : absf a i = max (a i) (-(a i)) := rfl
theorem logistic_apply (a : FVec Ideal s φ) (i : s.Idx) : logistic a i = Ideal.logistic (a i) := rfl

/-- No extended real differs from itself: the comparison bit is zero. -/
theorem cmp_one_self (a : EReal) : Ideal.cmp .one a a = 0#1 := by
  simp [Ideal.cmp]

/-- The softplus as the body spells it (a self-comparison choosing between `x + 0` and the stable form). -/
theorem softplus_body (x : EReal) :
    Scalar.select (Ideal.cmp .one (x - w0) (x - w0)) (x + w0)
      (max x w0 + Ideal.log1p (Ideal.exp (w0 - max (x - w0) (-(x - w0))))) = softplus x := by
  rw [cmp_one_self, select_zero, w0_sub]; rfl

/-- The prior mean. -/
theorem pay4_apply (v1 : FVec Ideal S1024x256 .f32) (v9 : FVec Ideal S256x256 .bf16) (h : Fin 256 → EReal) (W10 : Mat 256 256)
    (p : Fin 1024) (hh : ∀ k : Fin 256, v1 (ix2 p k) = h k)
    (hW : ∀ (k j : Fin 256), v9 (ix2 k j) = W10 (ix2 j k)) (j : Fin 256) :
    k0_pay4 (F := Ideal) v1 v9 (ix2 p j) = muP h W10 j := by
  unfold k0_pay4 k0_pay2
  simp only [shapeCast_self, maximumf_apply, rows256x256, truncf_apply, broadcast_apply, hW, hh]
  rfl

/-- The prior spread. -/
theorem pay5_apply (v1 : FVec Ideal S1024x256 .f32) (v14 : FVec Ideal S256x256 .bf16) (h : Fin 256 → EReal) (W11 : Mat 256 256)
    (p : Fin 1024) (hh : ∀ k : Fin 256, v1 (ix2 p k) = h k)
    (hW : ∀ (k j : Fin 256), v14 (ix2 k j) = W11 (ix2 j k)) (j : Fin 256) :
    k0_pay5 (F := Ideal) v1 v14 (ix2 p j) = sigP h W11 j := by
  unfold k0_pay5 k0_pay2
  simp only [shapeCast_self, divf_apply, select_apply, cmpf_apply, addf_apply, subf_apply, mulf_apply, maximumf_apply,
    absf_apply, exp_apply, log1p_apply, rows256x256, truncf_apply, broadcast_apply, hW, hh]
  exact congrArg (fun x => Ideal.div x w12) (softplus_body _)

/-- The threshold state. -/
theorem pay6_apply (v3 : FVec Ideal S1024x16 .f32) (v6 : FVec Ideal S1024x1024 .bf16) (v34 : FVec Ideal S1024x256 .f32)
    (v37 : FVec Ideal S1024x16 .bf16) (v44 : FVec Ideal S256x16 .bf16)
    (I : Fin 1024 → EReal) (h : Fin 256 → EReal) (th : Fin 16 → EReal) (W11 : Mat 256 256) (W12 : Mat 16 1024) (W13 : Mat 16 256)
    (p : Fin 1024) (hth : ∀ d : Fin 16, v3 (ix2 p d) = th d) (hI : ∀ k : Fin 1024, v6 (ix2 p k) = I k)
    (hS : ∀ j : Fin 256, v34 (ix2 p j) = sigP h W11 j)
    (hW12 : ∀ (k : Fin 1024) (d : Fin 16), v37 (ix2 k d) = W12 (ix2 d k))
    (hW13 : ∀ (j : Fin 256) (d : Fin 16), v44 (ix2 j d) = relu (W13 (ix2 d j))) (d : Fin 16) :
    k0_pay6 (F := Ideal) v3 v6 v34 (Scalar.ofBits .f32 0x3F000000#32) v37 v44 (ix2 p d) = theta I h th W11 W12 W13 d := by
  unfold k0_pay6
  simp only [shapeCast_self, divf_apply, select_apply, cmpf_apply, addf_apply, subf_apply, mulf_apply, maximumf_apply,
    absf_apply, exp_apply, log1p_apply, rows1024x16, rows256x16, truncf_apply, broadcast_apply, hth, hI, hS, hW12, hW13]
  exact congrArg (fun x => wMilli * Ideal.div x wHalf) (softplus_body _)

/-- The posterior mean. -/
theorem pay7_apply (v6 : FVec Ideal S1024x1024 .bf16) (v68 : FVec Ideal S1024x256 .bf16) (I : Fin 1024 → EReal) (W6 : Mat 256 1024)
    (p : Fin 1024) (hI : ∀ k : Fin 1024, v6 (ix2 p k) = I k)
    (hW : ∀ (k : Fin 1024) (j : Fin 256), v68 (ix2 k j) = W6 (ix2 j k)) (j : Fin 256) :
    k0_pay7 (F := Ideal) v6 v68 (ix2 p j) = relu (dot I (row W6 j)) := by
  unfold k0_pay7
  simp only [shapeCast_self, maximumf_apply, rows1024x256, broadcast_apply, hW, hI]
  rfl

/-- The posterior spread before its relu. -/
theorem pay8_apply (v6 : FVec Ideal S1024x1024 .bf16) (v73 : FVec Ideal S1024x256 .bf16) (I : Fin 1024 → EReal) (W7 : Mat 256 1024)
    (p : Fin 1024) (hI : ∀ k : Fin 1024, v6 (ix2 p k) = I k)
    (hW : ∀ (k : Fin 1024) (j : Fin 256), v73 (ix2 k j) = W7 (ix2 j k)) (j : Fin 256) :
    k0_pay8 (F := Ideal) v6 v73 (ix2 p j) = dot I (row W7 j) := by
  unfold k0_pay8
  simp only [shapeCast_self, rows1024x256, hW, hI]
  rfl

/-- The sample. -/
theorem pay9_apply (v4 : FVec Ideal S1024x256 .f32) (v67 : FVec Ideal S1024x16 .f32) (v72 v75 : FVec Ideal S1024x256 .f32)
    (v85 : FVec Ideal S16x256 .bf16)
    (I : Fin 1024 → EReal) (h : Fin 256 → EReal) (th : Fin 16 → EReal) (ez : Fin 256 → EReal) (W6 W7 : Mat 256 1024)
    (W11 : Mat 256 256) (W12 : Mat 16 1024) (W13 : Mat 16 256) (W14 : Mat 256 16)
    (p : Fin 1024) (hez : ∀ j : Fin 256, v4 (ix2 p j) = ez j)
    (hth : ∀ d : Fin 16, v67 (ix2 p d) = theta I h th W11 W12 W13 d)
    (hmq : ∀ j : Fin 256, v72 (ix2 p j) = relu (dot I (row W6 j)))
    (hsq : ∀ j : Fin 256, v75 (ix2 p j) = dot I (row W7 j))
    (hW14 : ∀ (d : Fin 16) (j : Fin 256), v85 (ix2 d j) = relu (W14 (ix2 j d))) (j : Fin 256) :
    k0_pay9 (F := Ideal) v4 v67 v72 v75 v85 (ix2 p j) = zq I h th ez W6 W7 W11 W12 W13 W14 j := by
  unfold k0_pay9
  simp only [shapeCast_self, addf_apply, subf_apply, mulf_apply, maximumf_apply, minimumf_apply, rows16x256, truncf_apply,
    broadcast_apply, hez, hth, hmq, hsq, hW14]
  rfl

/-- The reconstruction. -/
theorem pay10_apply (v4 : FVec Ideal S1024x256 .f32) (v67 : FVec Ideal S1024x16 .f32) (v72 v75 : FVec Ideal S1024x256 .f32)
    (v85 : FVec Ideal S16x256 .bf16) (v94 : FVec Ideal S256x256 .bf16) (v98 : FVec Ideal S256x1024 .bf16)
    (I : Fin 1024 → EReal) (h : Fin 256 → EReal) (th : Fin 16 → EReal) (ez : Fin 256 → EReal) (W6 W7 : Mat 256 1024)
    (W11 : Mat 256 256) (W12 : Mat 16 1024) (W13 : Mat 16 256) (W14 : Mat 256 16) (W15 : Mat 256 256) (W16 : Mat 1024 256)
    (p : Fin 1024) (hez : ∀ j : Fin 256, v4 (ix2 p j) = ez j)
    (hth : ∀ d : Fin 16, v67 (ix2 p d) = theta I h th W11 W12 W13 d)
    (hmq : ∀ j : Fin 256, v72 (ix2 p j) = relu (dot I (row W6 j)))
    (hsq : ∀ j : Fin 256, v75 (ix2 p j) = dot I (row W7 j))
    (hW14 : ∀ (d : Fin 16) (j : Fin 256), v85 (ix2 d j) = relu (W14 (ix2 j d)))
    (hW15 : ∀ (k j : Fin 256), v94 (ix2 k j) = W15 (ix2 j k))
    (hW16 : ∀ (j : Fin 256) (q : Fin 1024), v98 (ix2 j q) = W16 (ix2 q j)) (q : Fin 1024) :
    k0_pay10 (F := Ideal) v4 v67 v72 v75 v85 v94 v98 (ix2 p q) = ihat I h th ez W6 W7 W11 W12 W13 W14 W15 W16 q := by
  have hz : ∀ k : Fin 256, k0_pay9 (F := Ideal) v4 v67 v72 v75 v85 (ix2 p k) = zq I h th ez W6 W7 W11 W12 W13 W14 k :=
    pay9_apply v4 v67 v72 v75 v85 I h th ez W6 W7 W11 W12 W13 W14 p hez hth hmq hsq hW14
  unfold k0_pay10
  simp only [shapeCast_self, logistic_apply, rows256x256, rows256x1024, truncf_apply, hz, hW15, hW16]
  rfl

/-- The next higher state. -/
theorem pay11_apply (v7 v8 : FVec Ideal S1024x256 .bf16) (v102 v105 : FVec Ideal S256x256 .bf16) (h zm : Fin 256 → EReal)
    (W8 W9 : Mat 256 256) (p : Fin 1024) (hh : ∀ k : Fin 256, v7 (ix2 p k) = h k) (hzm : ∀ k : Fin 256, v8 (ix2 p k) = zm k)
    (hW8 : ∀ (k j : Fin 256), v102 (ix2 k j) = W8 (ix2 j k)) (hW9 : ∀ (k j : Fin 256), v105 (ix2 k j) = W9 (ix2 j k))
    (j : Fin 256) :
    k0_pay11 (F := Ideal) v7 v8 v102 v105 (ix2 p j) = hnew h zm W8 W9 j := by
  unfold k0_pay11
  simp only [shapeCast_self, addf_apply, maximumf_apply, rows256x256, broadcast_apply, hh, hzm, hW8, hW9]
  rfl

/-- The prior sample. -/
theorem pay12_apply (v5 v13 v34 : FVec Ideal S1024x256 .f32) (h ezh : Fin 256 → EReal) (W10 W11 : Mat 256 256) (p : Fin 1024)
    (hezh : ∀ j : Fin 256, v5 (ix2 p j) = ezh j) (hmu : ∀ j : Fin 256, v13 (ix2 p j) = muP h W10 j)
    (hs : ∀ j : Fin 256, v34 (ix2 p j) = sigP h W11 j) (j : Fin 256) :
    k0_pay12 (F := Ideal) v5 v13 v34 (ix2 p j) = zhat h ezh W10 W11 j := by
  unfold k0_pay12
  simp only [addf_apply, mulf_apply, hezh, hmu, hs]
  rfl

/-! ## The four stored blocks, over any loaded blocks -/

section Blocks

variable (x0 : FVec Ideal S1024x1024 .f32) (x1 x2 : FVec Ideal S1024x256 .f32) (x3 : FVec Ideal S1024x16 .f32)
  (x4 x5 : FVec Ideal S1024x256 .f32) (x6 x7 : FVec Ideal S1024x256 .bf16) (x8 x9 x10 x11 : FVec Ideal S256x256 .bf16)
  (x12 : FVec Ideal S1024x16 .bf16) (x13 : FVec Ideal S256x16 .bf16) (x14 : FVec Ideal S16x256 .bf16)
  (x15 : FVec Ideal S256x256 .bf16) (x16 : FVec Ideal S256x1024 .bf16)
  (W6 W7 : Mat 256 1024) (W8 W9 W10 W11 : Mat 256 256) (W12 : Mat 16 1024) (W13 : Mat 16 256) (W14 : Mat 256 16)
  (W15 : Mat 256 256) (W16 : Mat 1024 256)

/-- The sample's block: row `p` of the block is the sample of row `p` of the loaded blocks. -/
theorem block_z (h6 : ∀ (k : Fin 1024) (j : Fin 256), x6 (ix2 k j) = W6 (ix2 j k))
    (h7 : ∀ (k : Fin 1024) (j : Fin 256), x7 (ix2 k j) = W7 (ix2 j k))
    (h11 : ∀ (k j : Fin 256), x11 (ix2 k j) = W11 (ix2 j k))
    (h12 : ∀ (k : Fin 1024) (d : Fin 16), x12 (ix2 k d) = W12 (ix2 d k))
    (h13 : ∀ (j : Fin 256) (d : Fin 16), x13 (ix2 j d) = relu (W13 (ix2 d j)))
    (h14 : ∀ (d : Fin 16) (j : Fin 256), x14 (ix2 d j) = relu (W14 (ix2 j d))) (p : Fin 1024) (j : Fin 256) :
    k0_pay9 (F := Ideal) x4 (k0_pay6 x3 (k0_pay1 x0) (k0_pay5 x1 x11) (Scalar.ofBits .f32 0x3F000000#32) x12 x13)
        (k0_pay7 (k0_pay1 x0) x6) (k0_pay8 (k0_pay1 x0) x7) x14 (ix2 p j)
      = zq (row x0 p) (row x1 p) (row x3 p) (row x4 p) W6 W7 W11 W12 W13 W14 j :=
  pay9_apply x4 (k0_pay6 x3 (k0_pay1 x0) (k0_pay5 x1 x11) (Scalar.ofBits .f32 0x3F000000#32) x12 x13)
    (k0_pay7 (k0_pay1 x0) x6) (k0_pay8 (k0_pay1 x0) x7) x14
    (row x0 p) (row x1 p) (row x3 p) (row x4 p) W6 W7 W11 W12 W13 W14 p (fun _ => rfl)
    (fun d => pay6_apply x3 (k0_pay1 x0) (k0_pay5 x1 x11) x12 x13 (row x0 p) (row x1 p) (row x3 p) W11 W12 W13 p
      (fun _ => rfl) (fun _ => rfl) (fun j' => pay5_apply x1 x11 (row x1 p) W11 p (fun _ => rfl) h11 j') h12 h13 d)
    (fun j' => pay7_apply (k0_pay1 x0) x6 (row x0 p) W6 p (fun _ => rfl) h6 j')
    (fun j' => pay8_apply (k0_pay1 x0) x7 (row x0 p) W7 p (fun _ => rfl) h7 j') h14 j

/-- The reconstruction's block. -/
theorem block_ihat (h6 : ∀ (k : Fin 1024) (j : Fin 256), x6 (ix2 k j) = W6 (ix2 j k))
    (h7 : ∀ (k : Fin 1024) (j : Fin 256), x7 (ix2 k j) = W7 (ix2 j k))
    (h11 : ∀ (k j : Fin 256), x11 (ix2 k j) = W11 (ix2 j k))
    (h12 : ∀ (k : Fin 1024) (d : Fin 16), x12 (ix2 k d) = W12 (ix2 d k))
    (h13 : ∀ (j : Fin 256) (d : Fin 16), x13 (ix2 j d) = relu (W13 (ix2 d j)))
    (h14 : ∀ (d : Fin 16) (j : Fin 256), x14 (ix2 d j) = relu (W14 (ix2 j d)))
    (h15 : ∀ (k j : Fin 256), x15 (ix2 k j) = W15 (ix2 j k))
    (h16 : ∀ (j : Fin 256) (q : Fin 1024), x16 (ix2 j q) = W16 (ix2 q j)) (p q : Fin 1024) :
    k0_pay10 (F := Ideal) x4 (k0_pay6 x3 (k0_pay1 x0) (k0_pay5 x1 x11) (Scalar.ofBits .f32 0x3F000000#32) x12 x13)
        (k0_pay7 (k0_pay1 x0) x6) (k0_pay8 (k0_pay1 x0) x7) x14 x15 x16 (ix2 p q)
      = ihat (row x0 p) (row x1 p) (row x3 p) (row x4 p) W6 W7 W11 W12 W13 W14 W15 W16 q :=
  pay10_apply x4 (k0_pay6 x3 (k0_pay1 x0) (k0_pay5 x1 x11) (Scalar.ofBits .f32 0x3F000000#32) x12 x13)
    (k0_pay7 (k0_pay1 x0) x6) (k0_pay8 (k0_pay1 x0) x7) x14 x15 x16
    (row x0 p) (row x1 p) (row x3 p) (row x4 p) W6 W7 W11 W12 W13 W14 W15 W16 p (fun _ => rfl)
    (fun d => pay6_apply x3 (k0_pay1 x0) (k0_pay5 x1 x11) x12 x13 (row x0 p) (row x1 p) (row x3 p) W11 W12 W13 p
      (fun _ => rfl) (fun _ => rfl) (fun j' => pay5_apply x1 x11 (row x1 p) W11 p (fun _ => rfl) h11 j') h12 h13 d)
    (fun j' => pay7_apply (k0_pay1 x0) x6 (row x0 p) W6 p (fun _ => rfl) h6 j')
    (fun j' => pay8_apply (k0_pay1 x0) x7 (row x0 p) W7 p (fun _ => rfl) h7 j') h14 h15 h16 q

/-- The next state's block. -/
theorem block_h (h8 : ∀ (k j : Fin 256), x8 (ix2 k j) = W8 (ix2 j k)) (h9 : ∀ (k j : Fin 256), x9 (ix2 k j) = W9 (ix2 j k))
    (p : Fin 1024) (j : Fin 256) :
    k0_pay11 (F := Ideal) (k0_pay2 x1) (k0_pay3 x2) x8 x9 (ix2 p j) = hnew (row x1 p) (row x2 p) W8 W9 j :=
  pay11_apply (k0_pay2 x1) (k0_pay3 x2) x8 x9 (row x1 p) (row x2 p) W8 W9 p (fun _ => rfl) (fun _ => rfl) h8 h9 j

/-- The prior sample's block. -/
theorem block_zhat (h10 : ∀ (k j : Fin 256), x10 (ix2 k j) = W10 (ix2 j k))
    (h11 : ∀ (k j : Fin 256), x11 (ix2 k j) = W11 (ix2 j k)) (p : Fin 1024) (j : Fin 256) :
    k0_pay12 (F := Ideal) x5 (k0_pay4 x1 x10) (k0_pay5 x1 x11) (ix2 p j) = zhat (row x1 p) (row x5 p) W10 W11 j :=
  pay12_apply x5 (k0_pay4 x1 x10) (k0_pay5 x1 x11) (row x1 p) (row x5 p) W10 W11 p (fun _ => rfl)
    (fun j' => pay4_apply x1 x10 (row x1 p) W10 p (fun _ => rfl) h10 j')
    (fun j' => pay5_apply x1 x11 (row x1 p) W11 p (fun _ => rfl) h11 j') j

end Blocks

end Cert.BlockValue

end
-- ==== Proof.Blocks.lean ====
/-
  From blocks to arrays. The grid has eight points; point `t` works on rows `1024 t … 1024 t + 1023` of every batch
  array (inputs and outputs alike) and on the whole of every weight matrix. So row `p` of a batch window's block at
  point `t` is row `1024 t + p` of its array, a weight window's block is its whole array, and what point `t` writes
  back to an output is rows `1024 t …` of the specification's array of the whole batch: the specification is row-wise,
  and the loaded rows are the batch's rows. Every row of an output lies in exactly the block of point `row / 1024`, so
  after all eight points each output array IS the specification's array.
-/
import proofs.«138823_j77910706749637_1_alg».proof.Proof.Gen.KernelIdeal.Frame
import proofs.«138823_j77910706749637_1_alg».proof.Proof.Spec
import proofs.«138823_j77910706749637_1_alg».proof.Proof.Body
import proofs.«138823_j77910706749637_1_alg».proof.Proof.HostSide
import Idealize.ShloMosaic.Lib.Pipeline.Value
import Idealize.ShloMosaic.Lib.ValueIdx

set_option maxRecDepth 16384

noncomputable section

namespace Cert.BlockToArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Step Cert.BlockValue Cert.HostSide

variable (m : (ℓ : Loc nD τ sig) → Buf (Elt Ideal) ℓ) (c : Dev nD)

theorem gridN : cfg0.N = 8 := rfl

theorem hz : (![0, 0] : Fin 2 → Nat) = fun _ => 0 := funext fun a => by fin_cases a <;> rfl

/-- The batch row that row `p` of point `t`'s blocks is. -/
def batchRow (t : Fin cfg0.N) (p : Fin 1024) : Fin 8192 :=
  ⟨t.val * 1024 + p.val, by have := t.isLt; have := p.isLt; have := gridN; omega⟩

theorem batchRow_val (t : Fin cfg0.N) (p : Fin 1024) : (batchRow t p).val = t.val * 1024 + p.val := rfl

/-! ## The index maps, decided over the eight points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)
theorem idx18 : ∀ t : Fin cfg0.N, win0_18.index t (0 : Fin 2) = t.val ∧ win0_18.index t (1 : Fin 2) = 0 :=
  (by decide +kernel : ∀ t : Fin grid0.N, _)
theorem idx19 : ∀ t : Fin cfg0.N, win0_19.index t (0 : Fin 2) = t.val ∧ win0_19.index t (1 : Fin 2) = 0 :=
  (by decide +kernel : ∀ t : Fin grid0.N, _)
theorem idx20 : ∀ t : Fin cfg0.N, win0_20.index t (0 : Fin 2) = t.val ∧ win0_20.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)

/-! ## Where a block's entry sits in its array -/

theorem emb0 (t : Fin cfg0.N) (p : Fin 1024) (k : Fin 1024) :
    ((cfg0.win 0).blk t).view.emb (ix2 p k) = ix2 (batchRow t p) k := by
  obtain ⟨e0, e1⟩ := idx0 t
  funext a; apply Fin.ext
  match a with
  | ⟨0, _⟩ => show win0_0.index t (0 : Fin 2) * 1024 + 1 * p.val = t.val * 1024 + p.val; omega
  | ⟨1, _⟩ => show win0_0.index t (1 : Fin 2) * 1024 + 1 * k.val = k.val; omega

theorem emb1 (t : Fin cfg0.N) (p : Fin 1024) (k : Fin 256) :
    ((cfg0.win 1).blk t).view.emb (ix2 p k) = ix2 (batchRow t p) k := by
  obtain ⟨e0, e1⟩ := idx1 t
  funext a; apply Fin.ext
  match a with
  | ⟨0, _⟩ => show win0_1.index t (0 : Fin 2) * 1024 + 1 * p.val = t.val * 1024 + p.val; omega
  | ⟨1, _⟩ => show win0_1.index t (1 : Fin 2) * 256 + 1 * k.val = k.val; omega

theorem emb2 (t : Fin cfg0.N) (p : Fin 1024) (k : Fin 256) :
    ((cfg0.win 2).blk t).view.emb (ix2 p k) = ix2 (batchRow t p) k := by
  obtain ⟨e0, e1⟩ := idx2 t
  funext a; apply Fin.ext
  match a with
  | ⟨0, _⟩ => show win0_2.index t (0 : Fin 2) * 1024 + 1 * p.val = t.val * 1024 + p.val; omega
  | ⟨1, _⟩ => show win0_2.index t (1 : Fin 2) * 256 + 1 * k.val = k.val; omega

theorem emb3 (t : Fin cfg0.N) (p : Fin 1024) (k : Fin 16) :
    ((cfg0.win 3).blk t).view.emb (ix2 p k) = ix2 (batchRow t p) k := by
  obtain ⟨e0, e1⟩ := idx3 t
  funext a; apply Fin.ext
  match a with
  | ⟨0, _⟩ => show win0_3.index t (0 : Fin 2) * 1024 + 1 * p.val = t.val * 1024 + p.val; omega
  | ⟨1, _⟩ => show win0_3.index t (1 : Fin 2) * 16 + 1 * k.val = k.val; omega

theorem emb4 (t : Fin cfg0.N) (p : Fin 1024) (k : Fin 256) :
    ((cfg0.win 4).blk t).view.emb (ix2 p k) = ix2 (batchRow t p) k := by
  obtain ⟨e0, e1⟩ := idx4 t
  funext a; apply Fin.ext
  match a with
  | ⟨0, _⟩ => show win0_4.index t (0 : Fin 2) * 1024 + 1 * p.val = t.val * 1024 + p.val; omega
  | ⟨1, _⟩ => show win0_4.index t (1 : Fin 2) * 256 + 1 * k.val = k.val; omega

theorem emb5 (t : Fin cfg0.N) (p : Fin 1024) (k : Fin 256) :
    ((cfg0.win 5).blk t).view.emb (ix2 p k) = ix2 (batchRow t p) k := by
  obtain ⟨e0, e1⟩ := idx5 t
  funext a; apply Fin.ext
  match a with
  | ⟨0, _⟩ => show win0_5.index t (0 : Fin 2) * 1024 + 1 * p.val = t.val * 1024 + p.val; omega
  | ⟨1, _⟩ => show win0_5.index t (1 : Fin 2) * 256 + 1 * k.val = k.val; omega

theorem emb17 (t : Fin cfg0.N) (p : Fin 1024) (k : Fin 1024) :
    ((cfg0.win 17).blk t).view.emb (ix2 p k) = ix2 (batchRow t p) k := by
  obtain ⟨e0, e1⟩ := idx17 t
  funext a; apply Fin.ext
  match a with
  | ⟨0, _⟩ => show win0_17.index t (0 : Fin 2) * 1024 + 1 * p.val = t.val * 1024 + p.val; omega
  | ⟨1, _⟩ => show win0_17.index t (1 : Fin 2) * 1024 + 1 * k.val = k.val; omega

theorem emb18 (t : Fin cfg0.N) (p : Fin 1024) (k : Fin 256) :
    ((cfg0.win 18).blk t).view.emb (ix2 p k) = ix2 (batchRow t p) k := by
  obtain ⟨e0, e1⟩ := idx18 t
  funext a; apply Fin.ext
  match a with
  | ⟨0, _⟩ => show win0_18.index t (0 : Fin 2) * 1024 + 1 * p.val = t.val * 1024 + p.val; omega
  | ⟨1, _⟩ => show win0_18.index t (1 : Fin 2) * 256 + 1 * k.val = k.val; omega

theorem emb19 (t : Fin cfg0.N) (p : Fin 1024) (k : Fin 256) :
    ((cfg0.win 19).blk t).view.emb (ix2 p k) = ix2 (batchRow t p) k := by
  obtain ⟨e0, e1⟩ := idx19 t
  funext a; apply Fin.ext
  match a with
  | ⟨0, _⟩ => show win0_19.index t (0 : Fin 2) * 1024 + 1 * p.val = t.val * 1024 + p.val; omega
  | ⟨1, _⟩ => show win0_19.index t (1 : Fin 2) * 256 + 1 * k.val = k.val; omega

theorem emb20 (t : Fin cfg0.N) (p : Fin 1024) (k : Fin 256) :
    ((cfg0.win 20).blk t).view.emb (ix2 p k) = ix2 (batchRow t p) k := by
  obtain ⟨e0, e1⟩ := idx20 t
  funext a; apply Fin.ext
  match a with
  | ⟨0, _⟩ => show win0_20.index t (0 : Fin 2) * 1024 + 1 * p.val = t.val * 1024 + p.val; omega
  | ⟨1, _⟩ => show win0_20.index t (1 : Fin 2) * 256 + 1 * k.val = k.val; omega

theorem emb6 (t : Fin cfg0.N) (a' : Fin 1024) (b' : Fin 256) :
    ((cfg0.win 6).blk t).view.emb (ix2 a' b') = ix2 a' b' := by
  obtain ⟨e0, e1⟩ := idx6 t
  funext a; apply Fin.ext
  match a with
  | ⟨0, _⟩ => show win0_6.index t (0 : Fin 2) * 1024 + 1 * a'.val = a'.val; omega
  | ⟨1, _⟩ => show win0_6.index t (1 : Fin 2) * 256 + 1 * b'.val = b'.val; omega

theorem emb7 (t : Fin cfg0.N) (a' : Fin 1024) (b' : Fin 256) :
    ((cfg0.win 7).blk t).view.emb (ix2 a' b') = ix2 a' b' := by
  obtain ⟨e0, e1⟩ := idx7 t
  funext a; apply Fin.ext
  match a with
  | ⟨0, _⟩ => show win0_7.index t (0 : Fin 2) * 1024 + 1 * a'.val = a'.val; omega
  | ⟨1, _⟩ => show win0_7.index t (1 : Fin 2) * 256 + 1 * b'.val = b'.val; omega

theorem emb8 (t : Fin cfg0.N) (a' : Fin 256) (b' : Fin 256) :
    ((cfg0.win 8).blk t).view.emb (ix2 a' b') = ix2 a' b' := by
  obtain ⟨e0, e1⟩ := idx8 t
  funext a; apply Fin.ext
  match a with
  | ⟨0, _⟩ => show win0_8.index t (0 : Fin 2) * 256 + 1 * a'.val = a'.val; omega
  | ⟨1, _⟩ => show win0_8.index t (1 : Fin 2) * 256 + 1 * b'.val = b'.val; omega

theorem emb9 (t : Fin cfg0.N) (a' : Fin 256) (b' : Fin 256) :
    ((cfg0.win 9).blk t).view.emb (ix2 a' b') = ix2 a' b' := by
  obtain ⟨e0, e1⟩ := idx9 t
  funext a; apply Fin.ext
  match a with
  | ⟨0, _⟩ => show win0_9.index t (0 : Fin 2) * 256 + 1 * a'.val = a'.val; omega
  | ⟨1, _⟩ => show win0_9.index t (1 : Fin 2) * 256 + 1 * b'.val = b'.val; omega

theorem emb10 (t : Fin cfg0.N) (a' : Fin 256) (b' : Fin 256) :
    ((cfg0.win 10).blk t).view.emb (ix2 a' b') = ix2 a' b' := by
  obtain ⟨e0, e1⟩ := idx10 t
  funext a; apply Fin.ext
  match a with
  | ⟨0, _⟩ => show win0_10.index t (0 : Fin 2) * 256 + 1 * a'.val = a'.val; omega
  | ⟨1, _⟩ => show win0_10.index t (1 : Fin 2) * 256 + 1 * b'.val = b'.val; omega

theorem emb11 (t : Fin cfg0.N) (a' : Fin 256) (b' : Fin 256) :
    ((cfg0.win 11).blk t).view.emb (ix2 a' b') = ix2 a' b' := by
  obtain ⟨e0, e1⟩ := idx11 t
  funext a; apply Fin.ext
  match a with
  | ⟨0, _⟩ => show win0_11.index t (0 : Fin 2) * 256 + 1 * a'.val = a'.val; omega
  | ⟨1, _⟩ => show win0_11.index t (1 : Fin 2) * 256 + 1 * b'.val = b'.val; omega

theorem emb12 (t : Fin cfg0.N) (a' : Fin 1024) (b' : Fin 16) :
    ((cfg0.win 12).blk t).view.emb (ix2 a' b') = ix2 a' b' := by
  obtain ⟨e0, e1⟩ := idx12 t
  funext a; apply Fin.ext
  match a with
  | ⟨0, _⟩ => show win0_12.index t (0 : Fin 2) * 1024 + 1 * a'.val = a'.val; omega
  | ⟨1, _⟩ => show win0_12.index t (1 : Fin 2) * 16 + 1 * b'.val = b'.val; omega

theorem emb13 (t : Fin cfg0.N) (a' : Fin 256) (b' : Fin 16) :
    ((cfg0.win 13).blk t).view.emb (ix2 a' b') = ix2 a' b' := by
  obtain ⟨e0, e1⟩ := idx13 t
  funext a; apply Fin.ext
  match a with
  | ⟨0, _⟩ => show win0_13.index t (0 : Fin 2) * 256 + 1 * a'.val = a'.val; omega
  | ⟨1, _⟩ => show win0_13.index t (1 : Fin 2) * 16 + 1 * b'.val = b'.val; omega

theorem emb14 (t : Fin cfg0.N) (a' : Fin 16) (b' : Fin 256) :
    ((cfg0.win 14).blk t).view.emb (ix2 a' b') = ix2 a' b' := by
  obtain ⟨e0, e1⟩ := idx14 t
  funext a; apply Fin.ext
  match a with
  | ⟨0, _⟩ => show win0_14.index t (0 : Fin 2) * 16 + 1 * a'.val = a'.val; omega
  | ⟨1, _⟩ => show win0_14.index t (1 : Fin 2) * 256 + 1 * b'.val = b'.val; omega

theorem emb15 (t : Fin cfg0.N) (a' : Fin 256) (b' : Fin 256) :
    ((cfg0.win 15).blk t).view.emb (ix2 a' b') = ix2 a' b' := by
  obtain ⟨e0, e1⟩ := idx15 t
  funext a; apply Fin.ext
  match a with
  | ⟨0, _⟩ => show win0_15.index t (0 : Fin 2) * 256 + 1 * a'.val = a'.val; omega
  | ⟨1, _⟩ => show win0_15.index t (1 : Fin 2) * 256 + 1 * b'.val = b'.val; omega

theorem emb16 (t : Fin cfg0.N) (a' : Fin 256) (b' : Fin 1024) :
    ((cfg0.win 16).blk t).view.emb (ix2 a' b') = ix2 a' b' := by
  obtain ⟨e0, e1⟩ := idx16 t
  funext a; apply Fin.ext
  match a with
  | ⟨0, _⟩ => show win0_16.index t (0 : Fin 2) * 256 + 1 * a'.val = a'.val; omega
  | ⟨1, _⟩ => show win0_16.index t (1 : Fin 2) * 1024 + 1 * b'.val = b'.val; omega

/-! ## The loaded blocks: rows of the batch, whole weight matrices (transposed, two of them after a relu) -/

theorem row_iblk0 (t : Fin cfg0.N) (p : Fin 1024) :
    row (a := 1024) (b := 1024) (iblk m c 0 t) p = row (m ((c : Thread nD τ).loc main_arg0)) (batchRow t p) := by
  funext k
  show V m c main_arg0 (((cfg0.win 0).blk t).view.emb (ix2 p k)) = _
  rw [emb0, V_main_arg0]; rfl

theorem row_iblk1 (t : Fin cfg0.N) (p : Fin 1024) :
    row (a := 1024) (b := 256) (iblk m c 1 t) p = row (m ((c : Thread nD τ).loc main_arg1)) (batchRow t p) := by
  funext k
  show V m c main_arg1 (((cfg0.win 1).blk t).view.emb (ix2 p k)) = _
  rw [emb1, V_main_arg1]; rfl

theorem row_iblk2 (t : Fin cfg0.N) (p : Fin 1024) :
    row (a := 1024) (b := 256) (iblk m c 2 t) p = row (m ((c : Thread nD τ).loc main_arg2)) (batchRow t p) := by
  funext k
  show V m c main_arg2 (((cfg0.win 2).blk t).view.emb (ix2 p k)) = _
  rw [emb2, V_main_arg2]; rfl

theorem row_iblk3 (t : Fin cfg0.N) (p : Fin 1024) :
    row (a := 1024) (b := 16) (iblk m c 3 t) p = row (m ((c : Thread nD τ).loc main_arg3)) (batchRow t p) := by
  funext k
  show V m c main_arg3 (((cfg0.win 3).blk t).view.emb (ix2 p k)) = _
  rw [emb3, V_main_arg3]; rfl

theorem row_iblk4 (t : Fin cfg0.N) (p : Fin 1024) :
    row (a := 1024) (b := 256) (iblk m c 4 t) p = row (m ((c : Thread nD τ).loc main_arg4)) (batchRow t p) := by
  funext k
  show V m c main_arg4 (((cfg0.win 4).blk t).view.emb (ix2 p k)) = _
  rw [emb4, V_main_arg4]; rfl

theorem row_iblk5 (t : Fin cfg0.N) (p : Fin 1024) :
    row (a := 1024) (b := 256) (iblk m c 5 t) p = row (m ((c : Thread nD τ).loc main_arg5)) (batchRow t p) := by
  funext k
  show V m c main_arg5 (((cfg0.win 5).blk t).view.emb (ix2 p k)) = _
  rw [emb5, V_main_arg5]; rfl

theorem iblk6_at (t : Fin cfg0.N) (a' : Fin 1024) (b' : Fin 256) :
    iblk m c 6 t (ix2 a' b') = m ((c : Thread nD τ).loc main_arg6) (ix2 b' a') := by
  show V m c main_v1 (((cfg0.win 6).blk t).view.emb (ix2 a' b')) = _
  rw [emb6]; exact pre_v1 m c a' b'

theorem iblk7_at (t : Fin cfg0.N) (a' : Fin 1024) (b' : Fin 256) :
    iblk m c 7 t (ix2 a' b') = m ((c : Thread nD τ).loc main_arg7) (ix2 b' a') := by
  show V m c main_v3 (((cfg0.win 7).blk t).view.emb (ix2 a' b')) = _
  rw [emb7]; exact pre_v3 m c a' b'

theorem iblk8_at (t : Fin cfg0.N) (a' : Fin 256) (b' : Fin 256) :
    iblk m c 8 t (ix2 a' b') = m ((c : Thread nD τ).loc main_arg8) (ix2 b' a') := by
  show V m c main_v5 (((cfg0.win 8).blk t).view.emb (ix2 a' b')) = _
  rw [emb8]; exact pre_v5 m c a' b'

theorem iblk9_at (t : Fin cfg0.N) (a' : Fin 256) (b' : Fin 256) :
    iblk m c 9 t (ix2 a' b') = m ((c : Thread nD τ).loc main_arg9) (ix2 b' a') := by
  show V m c main_v7 (((cfg0.win 9).blk t).view.emb (ix2 a' b')) = _
  rw [emb9]; exact pre_v7 m c a' b'

theorem iblk10_at (t : Fin cfg0.N) (a' : Fin 256) (b' : Fin 256) :
    iblk m c 10 t (ix2 a' b') = m ((c : Thread nD τ).loc main_arg10) (ix2 b' a') := by
  show V m c main_v9 (((cfg0.win 10).blk t).view.emb (ix2 a' b')) = _
  rw [emb10]; exact pre_v9 m c a' b'

theorem iblk11_at (t : Fin cfg0.N) (a' : Fin 256) (b' : Fin 256) :
    iblk m c 11 t (ix2 a' b') = m ((c : Thread nD τ).loc main_arg11) (ix2 b' a') := by
  show V m c main_v11 (((cfg0.win 11).blk t).view.emb (ix2 a' b')) = _
  rw [emb11]; exact pre_v11 m c a' b'

theorem iblk12_at (t : Fin cfg0.N) (a' : Fin 1024) (b' : Fin 16) :
    iblk m c 12 t (ix2 a' b') = m ((c : Thread nD τ).loc main_arg12) (ix2 b' a') := by
  show V m c main_v13 (((cfg0.win 12).blk t).view.emb (ix2 a' b')) = _
  rw [emb12]; exact pre_v13 m c a' b'

theorem iblk13_at (t : Fin cfg0.N) (a' : Fin 256) (b' : Fin 16) :
    iblk m c 13 t (ix2 a' b') = relu (m ((c : Thread nD τ).loc main_arg13) (ix2 b' a')) := by
  show V m c main_v16 (((cfg0.win 13).blk t).view.emb (ix2 a' b')) = _
  rw [emb13]; exact pre_v16 m c a' b'

theorem iblk14_at (t : Fin cfg0.N) (a' : Fin 16) (b' : Fin 256) :
    iblk m c 14 t (ix2 a' b') = relu (m ((c : Thread nD τ).loc main_arg14) (ix2 b' a')) := by
  show V m c main_v19 (((cfg0.win 14).blk t).view.emb (ix2 a' b')) = _
  rw [emb14]; exact pre_v19 m c a' b'

theorem iblk15_at (t : Fin cfg0.N) (a' : Fin 256) (b' : Fin 256) :
    iblk m c 15 t (ix2 a' b') = m ((c : Thread nD τ).loc main_arg15) (ix2 b' a') := by
  show V m c main_v21 (((cfg0.win 15).blk t).view.emb (ix2 a' b')) = _
  rw [emb15]; exact pre_v21 m c a' b'

theorem iblk16_at (t : Fin cfg0.N) (a' : Fin 256) (b' : Fin 1024) :
    iblk m c 16 t (ix2 a' b') = m ((c : Thread nD τ).loc main_arg16) (ix2 b' a') := by
  show V m c main_v23 (((cfg0.win 16).blk t).view.emb (ix2 a' b')) = _
  rw [emb16]; exact pre_v23 m c a' b'

/-! ## What each point writes back, and the arrays after the eight points -/

/-- Point `t` writes back rows `1024 t …` of the specification's array. -/
theorem flushed17_eq (t : Fin cfg0.N) :
    (dats m 0 c).flushed 17 t = ((cfg0.win 17).blk t).view.read (Elt Ideal) (IhatArr (n := 8192) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  show (cfg0.win 17).cut (grid0.coords t) ((dats m 0 c).after 17 t) = _
  rw [after0_17]
  unfold out0_17
  rw [View.canon_unit_zero hz]
  simp only [View.ld_unit_zero (S := S1024x1024) hz, View.ld_unit_zero (S := S1024x256) hz, View.ld_unit_zero (S := S1024x16) hz, View.ld_unit_zero (S := S256x256) hz, View.ld_unit_zero (S := S256x16) hz, View.ld_unit_zero (S := S16x256) hz, View.ld_unit_zero (S := S256x1024) hz]
  funext y
  obtain ⟨p, q, rfl⟩ : ∃ (p : Fin 1024) (q : Fin 1024), y = ix2 p q := ⟨y 0, y 1, eq_ix2 y⟩
  refine (block_ihat (iblk m c 0 t) (iblk m c 1 t) (iblk m c 3 t) (iblk m c 4 t) (iblk m c 6 t) (iblk m c 7 t) (iblk m c 11 t) (iblk m c 12 t) (iblk m c 13 t) (iblk m c 14 t) (iblk m c 15 t) (iblk m c 16 t) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (iblk6_at m c t) (iblk7_at m c t) (iblk11_at m c t) (iblk12_at m c t) (iblk13_at m c t) (iblk14_at m c t) (iblk15_at m c t) (iblk16_at m c t) p q).trans ?_
  rw [row_iblk0 m c t p, row_iblk1 m c t p, row_iblk3 m c t p, row_iblk4 m c t p]
  show _ = IhatArr (n := 8192) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (((cfg0.win 17).blk t).view.emb (ix2 p q))
  rw [emb17]
  rfl

/-- An index of the array is in point `t`'s block iff each coordinate is in the block's range on its axis. -/
theorem mem_blk17 (t : Fin cfg0.N) (i : S8192x1024.Idx) :
    i ∈ ((cfg0.win 17).blk t).view.set ↔ ∀ a : Fin 2, win0_17.index t a * S1024x1024.size a ≤ (i a).val ∧ (i a).val < win0_17.index t a * S1024x1024.size a + S1024x1024.size a := by
  show i ∈ ((View.whole main_v24_0).slice (win0_17.rect t)).set ↔ _
  rw [View.set_slice_whole, Rect.mem_set_unit]
  exact Iff.rfl

/-- Row `r` lies in the block of point `r / 1024`. -/
theorem cover17 (i : S8192x1024.Idx) :
    ∃ t : Fin cfg0.N, (cfg0.win 17).flush t = true ∧ i ∈ ((cfg0.win 17).blk t).view.set := by
  have hi0 : (i 0).val < 8192 := (i 0).isLt
  have hi1 : (i 1).val < 1024 := (i 1).isLt
  have hN := gridN
  have ht : (i 0).val / 1024 < cfg0.N := by omega
  obtain ⟨e0, e1⟩ := idx17 ⟨(i 0).val / 1024, ht⟩
  refine ⟨⟨(i 0).val / 1024, ht⟩, flush0_17 _, ?_⟩
  rw [mem_blk17]
  intro a
  match a with
  | ⟨0, _⟩ =>
    show win0_17.index ⟨(i 0).val / 1024, ht⟩ (0 : Fin 2) * 1024 ≤ (i 0).val ∧ (i 0).val < win0_17.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_17.index ⟨(i 0).val / 1024, ht⟩ (1 : Fin 2) * 1024 ≤ (i 1).val ∧ (i 1).val < win0_17.index ⟨(i 0).val / 1024, ht⟩ (1 : Fin 2) * 1024 + 1024
    rw [e1]; omega

/-- The array after the run. -/
theorem final17 : (dats m 0 c).arrAt 17 cfg0.N = (IhatArr (n := 8192) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) :=
  (dats m 0 c).arrAt_eq_of_cover 17 (IhatArr (n := 8192) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (fun t _ => flushed17_eq m c t) (cover17)

/-- Point `t` writes back rows `1024 t …` of the specification's array. -/
theorem flushed18_eq (t : Fin cfg0.N) :
    (dats m 0 c).flushed 18 t = ((cfg0.win 18).blk t).view.read (Elt Ideal) (ZArr (n := 8192) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14))) := by
  show (cfg0.win 18).cut (grid0.coords t) ((dats m 0 c).after 18 t) = _
  rw [after0_18]
  unfold out0_18
  rw [View.canon_unit_zero hz]
  simp only [View.ld_unit_zero (S := S1024x1024) hz, View.ld_unit_zero (S := S1024x256) hz, View.ld_unit_zero (S := S1024x16) hz, View.ld_unit_zero (S := S256x256) hz, View.ld_unit_zero (S := S256x16) hz, View.ld_unit_zero (S := S16x256) hz]
  funext y
  obtain ⟨p, q, rfl⟩ : ∃ (p : Fin 1024) (q : Fin 256), y = ix2 p q := ⟨y 0, y 1, eq_ix2 y⟩
  refine (block_z (iblk m c 0 t) (iblk m c 1 t) (iblk m c 3 t) (iblk m c 4 t) (iblk m c 6 t) (iblk m c 7 t) (iblk m c 11 t) (iblk m c 12 t) (iblk m c 13 t) (iblk m c 14 t) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14))
    (iblk6_at m c t) (iblk7_at m c t) (iblk11_at m c t) (iblk12_at m c t) (iblk13_at m c t) (iblk14_at m c t) p q).trans ?_
  rw [row_iblk0 m c t p, row_iblk1 m c t p, row_iblk3 m c t p, row_iblk4 m c t p]
  show _ = ZArr (n := 8192) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (((cfg0.win 18).blk t).view.emb (ix2 p q))
  rw [emb18]
  rfl

/-- An index of the array is in point `t`'s block iff each coordinate is in the block's range on its axis. -/
theorem mem_blk18 (t : Fin cfg0.N) (i : S8192x256.Idx) :
    i ∈ ((cfg0.win 18).blk t).view.set ↔ ∀ a : Fin 2, win0_18.index t a * S1024x256.size a ≤ (i a).val ∧ (i a).val < win0_18.index t a * S1024x256.size a + S1024x256.size a := by
  show i ∈ ((View.whole main_v24_1).slice (win0_18.rect t)).set ↔ _
  rw [View.set_slice_whole, Rect.mem_set_unit]
  exact Iff.rfl

/-- Row `r` lies in the block of point `r / 1024`. -/
theorem cover18 (i : S8192x256.Idx) :
    ∃ t : Fin cfg0.N, (cfg0.win 18).flush t = true ∧ i ∈ ((cfg0.win 18).blk t).view.set := by
  have hi0 : (i 0).val < 8192 := (i 0).isLt
  have hi1 : (i 1).val < 256 := (i 1).isLt
  have hN := gridN
  have ht : (i 0).val / 1024 < cfg0.N := by omega
  obtain ⟨e0, e1⟩ := idx18 ⟨(i 0).val / 1024, ht⟩
  refine ⟨⟨(i 0).val / 1024, ht⟩, flush0_18 _, ?_⟩
  rw [mem_blk18]
  intro a
  match a with
  | ⟨0, _⟩ =>
    show win0_18.index ⟨(i 0).val / 1024, ht⟩ (0 : Fin 2) * 1024 ≤ (i 0).val ∧ (i 0).val < win0_18.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_18.index ⟨(i 0).val / 1024, ht⟩ (1 : Fin 2) * 256 ≤ (i 1).val ∧ (i 1).val < win0_18.index ⟨(i 0).val / 1024, ht⟩ (1 : Fin 2) * 256 + 256
    rw [e1]; omega

/-- The array after the run. -/
theorem final18 : (dats m 0 c).arrAt 18 cfg0.N = (ZArr (n := 8192) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14))) :=
  (dats m 0 c).arrAt_eq_of_cover 18 (ZArr (n := 8192) (m ((c : Thread nD τ).loc main_arg0)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14))) (fun t _ => flushed18_eq m c t) (cover18)

/-- Point `t` writes back rows `1024 t …` of the specification's array. -/
theorem flushed19_eq (t : Fin cfg0.N) :
    (dats m 0 c).flushed 19 t = ((cfg0.win 19).blk t).view.read (Elt Ideal) (HArr (n := 8192) (m ((c : Thread nD τ).loc main_arg1)) (m ((c : Thread nD τ).loc main_arg2)) (m ((c : Thread nD τ).loc main_arg8)) (m ((c : Thread nD τ).loc main_arg9))) := by
  show (cfg0.win 19).cut (grid0.coords t) ((dats m 0 c).after 19 t) = _
  rw [after0_19]
  unfold out0_19
  rw [View.canon_unit_zero hz]
  simp only [View.ld_unit_zero (S := S1024x256) hz, View.ld_unit_zero (S := S256x256) hz]
  funext y
  obtain ⟨p, q, rfl⟩ : ∃ (p : Fin 1024) (q : Fin 256), y = ix2 p q := ⟨y 0, y 1, eq_ix2 y⟩
  refine (block_h (iblk m c 1 t) (iblk m c 2 t) (iblk m c 8 t) (iblk m c 9 t) (m ((c : Thread nD τ).loc main_arg8)) (m ((c : Thread nD τ).loc main_arg9))
    (iblk8_at m c t) (iblk9_at m c t) p q).trans ?_
  rw [row_iblk1 m c t p, row_iblk2 m c t p]
  show _ = HArr (n := 8192) (m ((c : Thread nD τ).loc main_arg1)) (m ((c : Thread nD τ).loc main_arg2)) (m ((c : Thread nD τ).loc main_arg8)) (m ((c : Thread nD τ).loc main_arg9)) (((cfg0.win 19).blk t).view.emb (ix2 p q))
  rw [emb19]
  rfl

/-- An index of the array is in point `t`'s block iff each coordinate is in the block's range on its axis. -/
theorem mem_blk19 (t : Fin cfg0.N) (i : S8192x256.Idx) :
    i ∈ ((cfg0.win 19).blk t).view.set ↔ ∀ a : Fin 2, win0_19.index t a * S1024x256.size a ≤ (i a).val ∧ (i a).val < win0_19.index t a * S1024x256.size a + S1024x256.size a := by
  show i ∈ ((View.whole main_v24_2).slice (win0_19.rect t)).set ↔ _
  rw [View.set_slice_whole, Rect.mem_set_unit]
  exact Iff.rfl

/-- Row `r` lies in the block of point `r / 1024`. -/
theorem cover19 (i : S8192x256.Idx) :
    ∃ t : Fin cfg0.N, (cfg0.win 19).flush t = true ∧ i ∈ ((cfg0.win 19).blk t).view.set := by
  have hi0 : (i 0).val < 8192 := (i 0).isLt
  have hi1 : (i 1).val < 256 := (i 1).isLt
  have hN := gridN
  have ht : (i 0).val / 1024 < cfg0.N := by omega
  obtain ⟨e0, e1⟩ := idx19 ⟨(i 0).val / 1024, ht⟩
  refine ⟨⟨(i 0).val / 1024, ht⟩, flush0_19 _, ?_⟩
  rw [mem_blk19]
  intro a
  match a with
  | ⟨0, _⟩ =>
    show win0_19.index ⟨(i 0).val / 1024, ht⟩ (0 : Fin 2) * 1024 ≤ (i 0).val ∧ (i 0).val < win0_19.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_19.index ⟨(i 0).val / 1024, ht⟩ (1 : Fin 2) * 256 ≤ (i 1).val ∧ (i 1).val < win0_19.index ⟨(i 0).val / 1024, ht⟩ (1 : Fin 2) * 256 + 256
    rw [e1]; omega

/-- The array after the run. -/
theorem final19 : (dats m 0 c).arrAt 19 cfg0.N = (HArr (n := 8192) (m ((c : Thread nD τ).loc main_arg1)) (m ((c : Thread nD τ).loc main_arg2)) (m ((c : Thread nD τ).loc main_arg8)) (m ((c : Thread nD τ).loc main_arg9))) :=
  (dats m 0 c).arrAt_eq_of_cover 19 (HArr (n := 8192) (m ((c : Thread nD τ).loc main_arg1)) (m ((c : Thread nD τ).loc main_arg2)) (m ((c : Thread nD τ).loc main_arg8)) (m ((c : Thread nD τ).loc main_arg9))) (fun t _ => flushed19_eq m c t) (cover19)

/-- Point `t` writes back rows `1024 t …` of the specification's array. -/
theorem flushed20_eq (t : Fin cfg0.N) :
    (dats m 0 c).flushed 20 t = ((cfg0.win 20).blk t).view.read (Elt Ideal) (ZhatArr (n := 8192) (m ((c : Thread nD τ).loc main_arg1)) (m ((c : Thread nD τ).loc main_arg5)) (m ((c : Thread nD τ).loc main_arg10)) (m ((c : Thread nD τ).loc main_arg11))) := by
  show (cfg0.win 20).cut (grid0.coords t) ((dats m 0 c).after 20 t) = _
  rw [after0_20]
  unfold out0_20
  rw [View.canon_unit_zero hz]
  simp only [View.ld_unit_zero (S := S1024x256) hz, View.ld_unit_zero (S := S256x256) hz]
  funext y
  obtain ⟨p, q, rfl⟩ : ∃ (p : Fin 1024) (q : Fin 256), y = ix2 p q := ⟨y 0, y 1, eq_ix2 y⟩
  refine (block_zhat (iblk m c 1 t) (iblk m c 5 t) (iblk m c 10 t) (iblk m c 11 t) (m ((c : Thread nD τ).loc main_arg10)) (m ((c : Thread nD τ).loc main_arg11))
    (iblk10_at m c t) (iblk11_at m c t) p q).trans ?_
  rw [row_iblk1 m c t p, row_iblk5 m c t p]
  show _ = ZhatArr (n := 8192) (m ((c : Thread nD τ).loc main_arg1)) (m ((c : Thread nD τ).loc main_arg5)) (m ((c : Thread nD τ).loc main_arg10)) (m ((c : Thread nD τ).loc main_arg11)) (((cfg0.win 20).blk t).view.emb (ix2 p q))
  rw [emb20]
  rfl

/-- An index of the array is in point `t`'s block iff each coordinate is in the block's range on its axis. -/
theorem mem_blk20 (t : Fin cfg0.N) (i : S8192x256.Idx) :
    i ∈ ((cfg0.win 20).blk t).view.set ↔ ∀ a : Fin 2, win0_20.index t a * S1024x256.size a ≤ (i a).val ∧ (i a).val < win0_20.index t a * S1024x256.size a + S1024x256.size a := by
  show i ∈ ((View.whole main_v24_3).slice (win0_20.rect t)).set ↔ _
  rw [View.set_slice_whole, Rect.mem_set_unit]
  exact Iff.rfl

/-- Row `r` lies in the block of point `r / 1024`. -/
theorem cover20 (i : S8192x256.Idx) :
    ∃ t : Fin cfg0.N, (cfg0.win 20).flush t = true ∧ i ∈ ((cfg0.win 20).blk t).view.set := by
  have hi0 : (i 0).val < 8192 := (i 0).isLt
  have hi1 : (i 1).val < 256 := (i 1).isLt
  have hN := gridN
  have ht : (i 0).val / 1024 < cfg0.N := by omega
  obtain ⟨e0, e1⟩ := idx20 ⟨(i 0).val / 1024, ht⟩
  refine ⟨⟨(i 0).val / 1024, ht⟩, flush0_20 _, ?_⟩
  rw [mem_blk20]
  intro a
  match a with
  | ⟨0, _⟩ =>
    show win0_20.index ⟨(i 0).val / 1024, ht⟩ (0 : Fin 2) * 1024 ≤ (i 0).val ∧ (i 0).val < win0_20.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_20.index ⟨(i 0).val / 1024, ht⟩ (1 : Fin 2) * 256 ≤ (i 1).val ∧ (i 1).val < win0_20.index ⟨(i 0).val / 1024, ht⟩ (1 : Fin 2) * 256 + 256
    rw [e1]; omega

/-- The array after the run. -/
theorem final20 : (dats m 0 c).arrAt 20 cfg0.N = (ZhatArr (n := 8192) (m ((c : Thread nD τ).loc main_arg1)) (m ((c : Thread nD τ).loc main_arg5)) (m ((c : Thread nD τ).loc main_arg10)) (m ((c : Thread nD τ).loc main_arg11))) :=
  (dats m 0 c).arrAt_eq_of_cover 20 (ZhatArr (n := 8192) (m ((c : Thread nD τ).loc main_arg1)) (m ((c : Thread nD τ).loc main_arg5)) (m ((c : Thread nD τ).loc main_arg10)) (m ((c : Thread nD τ).loc main_arg11))) (fun t _ => flushed20_eq m c t) (cover20)

end Cert.BlockToArray

end
-- ==== Proof.KernelRun.lean ====
/-
  The kernel program's run with every result named: after the eight grid points the four output arrays are the
  specification's arrays of the whole batch, the three scalar summaries are the shared summaries of those arrays (and
  of the unchanged observation), and the seventeen arguments end as they began.
-/
import proofs.«138823_j77910706749637_1_alg».proof.Proof.Gen.KernelIdeal.Frame
import proofs.«138823_j77910706749637_1_alg».proof.Proof.Spec
import proofs.«138823_j77910706749637_1_alg».proof.Proof.Tail
import proofs.«138823_j77910706749637_1_alg».proof.Proof.HostSide
import proofs.«138823_j77910706749637_1_alg».proof.Proof.Blocks

set_option maxRecDepth 16384

noncomputable section

namespace Cert.KernelRun

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Step Cert.Losses Cert.BlockToArray Cert.HostSide

variable (m : (ℓ : Loc nD τ sig) → Buf (Elt Ideal) ℓ) (ρ : Dev nD → PrngReg)

/-- The observation's array is an input: no point writes it back. -/
theorem kept0 (c : Dev nD) : (dats m 0 c).arrAt 0 cfg0.N = m ((c.tc : Thread nD τ).loc main_arg0) :=
  ((dats m 0 c).arrAt_in 0 rfl _).trans ((A_eq m c 0).trans (V_main_arg0 m c))

set_option maxHeartbeats 1600000 in
theorem run : θ_run defs (onTc (τ := τ) (main (F := Ideal))) ⟨m, fun _ => 0, ρ⟩ (fun r => ∀ c : Dev nD,
      r.2.mem ((c.tc : Thread nD τ).loc main_v24_0) = (IhatArr (n := 8192) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_v24_1) = (ZArr (n := 8192) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) (m ((c.tc : Thread nD τ).loc main_arg14)))
      ∧ r.2.mem ((c.tc : Thread nD τ).loc main_v24_2) = (HArr (n := 8192) (m ((c.tc : Thread nD τ).loc main_arg1)) (m ((c.tc : Thread nD τ).loc main_arg2)) (m ((c.tc : Thread nD τ).loc main_arg8)) (m ((c.tc : Thread nD τ).loc main_arg9)))
      ∧ r.2.mem ((c.tc : Thread nD τ).loc main_v24_3) = (ZhatArr (n := 8192) (m ((c.tc : Thread nD τ).loc main_arg1)) (m ((c.tc : Thread nD τ).loc main_arg5)) (m ((c.tc : Thread nD τ).loc main_arg10)) (m ((c.tc : Thread nD τ).loc main_arg11)))
      ∧ r.2.mem ((c.tc : Thread nD τ).loc main_v28) = mseWide (m ((c.tc : Thread nD τ).loc main_arg0)) (IhatArr (n := 8192) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_v32) = mseNarrow (ZArr (n := 8192) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) (m ((c.tc : Thread nD τ).loc main_arg14))) (ZhatArr (n := 8192) (m ((c.tc : Thread nD τ).loc main_arg1)) (m ((c.tc : Thread nD τ).loc main_arg5)) (m ((c.tc : Thread nD τ).loc main_arg10)) (m ((c.tc : Thread nD τ).loc main_arg11)))
      ∧ r.2.mem ((c.tc : Thread nD τ).loc main_v35) = meanAbs (ZArr (n := 8192) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) (m ((c.tc : Thread nD τ).loc main_arg14)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 17).trans (final17 m c),
      ((h c).1 18).trans (final18 m c),
      ((h c).1 19).trans (final19 m c),
      ((h c).1 20).trans (final20 m c),
      ((h c).2 main_v28 (Pipeline.mem_restRefs_of main_v28 (by decide) (by decide))).trans (tail_spatial m c _ _ (kept0 m c) (final17 m c)),
      ((h c).2 main_v32 (Pipeline.mem_restRefs_of main_v32 (by decide) (by decide))).trans (tail_temporal m c _ _ (final18 m c) (final20 m c)),
      ((h c).2 main_v35 (Pipeline.mem_restRefs_of main_v35 (by decide) (by decide))).trans (tail_energy m c _ (final18 m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c))⟩)
    (run_main m ρ)

end Cert.KernelRun

end
-- ==== Proof.lean ====
/-
  The certificate's five claims.

  The kernel computes, for each of eight blocks of 1024 batch rows, the same row-wise functions the reference applies
  to all 8192 rows at once: a prior (mean and spread from the previous higher state), a threshold state driven by the
  observation and the prior spread, a thresholded posterior sample, its reconstruction through two linear maps and a
  logistic, the next higher state, and a prior sample; then three means over the results. Over the extended reals the
  kernel's format changes are the identity and its matrix products into zero accumulators are the reference's plain
  products, so entry by entry both programs evaluate ONE specification (the row functions of the specification
  module); the blocks tile the batch, so the kernel's four output arrays are the specification's arrays, which is also
  what the reference's stages are. The three means are the same operations applied to equal arrays. No algebraic law
  beyond `0 - a = -a` and the value of the float word of one is used, so the precondition (finite inputs) is never
  opened. The three frames are the generated ones (the reference's: its generated run with the results dropped), and
  the idealization rewrote nothing, so `preserves` is trivial.
-/
import proofs.«138823_j77910706749637_1_alg».proof.Defs
import proofs.«138823_j77910706749637_1_alg».proof.Proof.Gen.Kernel
import proofs.«138823_j77910706749637_1_alg».proof.Proof.Gen.Kernel.Skeleton
import proofs.«138823_j77910706749637_1_alg».proof.Proof.Gen.Kernel.Launch
import proofs.«138823_j77910706749637_1_alg».proof.Proof.Gen.Kernel.Points
import proofs.«138823_j77910706749637_1_alg».proof.Proof.Gen.Kernel.Frame
import proofs.«138823_j77910706749637_1_alg».proof.Proof.Gen.KernelIdeal
import proofs.«138823_j77910706749637_1_alg».proof.Proof.Gen.KernelIdeal.Skeleton
import proofs.«138823_j77910706749637_1_alg».proof.Proof.Gen.KernelIdeal.Launch
import proofs.«138823_j77910706749637_1_alg».proof.Proof.Gen.KernelIdeal.Points
import proofs.«138823_j77910706749637_1_alg».proof.Proof.Gen.KernelIdeal.Frame
import proofs.«138823_j77910706749637_1_alg».proof.Proof.Gen.ReferenceIdeal
import proofs.«138823_j77910706749637_1_alg».proof.Proof.Gen.Pre_finite_inputs
import proofs.«138823_j77910706749637_1_alg».proof.Proof.Gen.ReferenceIdeal.Run
import proofs.«138823_j77910706749637_1_alg».proof.Proof.Gen.ReferenceIdeal.Read
import proofs.«138823_j77910706749637_1_alg».proof.Proof.Spec
import proofs.«138823_j77910706749637_1_alg».proof.Proof.Tail
import proofs.«138823_j77910706749637_1_alg».proof.Proof.RefValue
import proofs.«138823_j77910706749637_1_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results forgotten. -/
theorem frame_ri : Cert.frame_ReferenceIdeal := fun m ρ _ =>
  (θ_run Cert.ReferenceIdeal.defs _ _).mono (fun _ h c => (h c).2.2.2.2.2.2.2) (Cert.ReferenceIdeal.Value.run (F := Ideal) m ρ)

/-- The idealization rewrote no operation. -/
theorem preserves : Cert.preserves_Kernel_KernelIdeal := trivial

set_option maxHeartbeats 1600000 in
/-- Both programs end with the specification's arrays and the shared means of them. -/
theorem algebraic : Cert.algebraic_KernelIdeal_ReferenceIdeal := by
  intro m ρ m' ρ' _ hagree
  refine ⟨_, _, _, _, _, _, _, Cert.KernelRun.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16⟩ := hagree c
  obtain ⟨r0, r1, r2, r3, r4, r5, r6, rargs⟩ := h c
  refine ⟨r0.trans ?_, r1.trans ?_, r2.trans ?_, r3.trans ?_, r4.trans ?_, r5.trans ?_, r6.trans ?_, rargs⟩
  · rw [Cert.ReferenceIdeal.Read.val_main_v53_eq, Cert.RefValue.ref_ihat, a0, a1, a3, a4, a6, a7, a11, a12, a13, a14, a15, a16]
  · rw [Cert.ReferenceIdeal.Read.val_main_v43_eq, Cert.RefValue.ref_z, a0, a1, a3, a4, a6, a7, a11, a12, a13, a14]
  · rw [Cert.ReferenceIdeal.Read.val_main_v59_eq, Cert.RefValue.ref_h, a1, a2, a8, a9]
  · rw [Cert.ReferenceIdeal.Read.val_main_v61_eq, Cert.RefValue.ref_zhat, a1, a5, a10, a11]
  · rw [Cert.ReferenceIdeal.Read.val_main_v65_eq, Cert.RefValue.ref_spatial, Cert.RefValue.ref_ihat, a0, a1, a3, a4, a6, a7, a11, a12, a13, a14, a15, a16]
  · rw [Cert.ReferenceIdeal.Read.val_main_v69_eq, Cert.RefValue.ref_temporal, Cert.RefValue.ref_z, Cert.RefValue.ref_zhat, a0, a1, a3, a4, a5, a6, a7, a10, a11, a12, a13, a14]
  · rw [Cert.ReferenceIdeal.Read.val_main_v72_eq, Cert.RefValue.ref_energy, Cert.RefValue.ref_z, a0, a1, a3, a4, a6, a7, a11, a12, a13, a14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
